-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S100x2048 : Shape := ⟨2, ![100, 2048]⟩
abbrev S100 : Shape := ⟨1, ![100]⟩
abbrev S50x100 : Shape := ⟨2, ![50, 100]⟩
abbrev S50 : Shape := ⟨1, ![50]⟩
abbrev S2048x50 : Shape := ⟨2, ![2048, 50]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_
  bcast_S_S50x100 : S_.BroadcastsInDim S50x100 (![] : Fin 0 → Fin S50x100.rank)
  reducesTo_S50x100_S_d0_1 : S50x100.ReducesTo [0, 1] S_
  bcast_S_S50 : S_.BroadcastsInDim S50 (![] : Fin 0 → Fin S50.rank)
  reducesTo_S50_S_d0 : S50.ReducesTo [0] S_
  bcast_S_S2048x50 : S_.BroadcastsInDim S2048x50 (![] : Fin 0 → Fin S2048x50.rank)
  reducesTo_S2048x50_S_d0_1 : S2048x50.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg10 : FVec F S100 .f32) (main_arg12 : FVec F S50 .f32) (main_v67 : IVec S_ 1) : IVec S_ 1 :=
  let main_cst_26 : FVec F S_ .f32 := constant S_ .f32 0x00000000#32
  let main_v68 : FVec F S100 .f32 := broadcastInDim S100 ![] bcast_S_S100 main_cst_26
  let main_v69 : IVec S100 1 := cmpf .oge main_arg10 main_v68
  let main_c_27 : IVec S_ 1 := constantI S_ 1 1#1
  let main_v70 : IVec S_ 1 := (fun x v => Host.reduce IntOp.andi x v reducesTo_S100_S_d0 h_S_) main_v69 main_c_27
  let main_v71 : IVec S_ 1 := andi main_v67 main_v70
  let main_cst_28 : FVec F S_ .f32 := constant S_ .f32 0x00000000#32
  let main_v72 : FVec F S50 .f32 := broadcastInDim S50 ![] bcast_S_S50 main_cst_28
  let main_v73 : IVec S50 1 := cmpf .oge main_arg12 main_v72
  let main_c_29 : IVec S_ 1 := constantI S_ 1 1#1
  let main_v74 : IVec S_ 1 := (fun x v => Host.reduce IntOp.andi x v reducesTo_S50_S_d0 h_S_) main_v73 main_c_29
  let main_v75 : IVec S_ 1 := andi main_v71 main_v74
  main_v75

def fn_part3 {F : FTy → Type} [FloatOps F] (main_arg8 : FVec F S2048 .f32) (main_arg10 : FVec F S100 .f32) (main_arg11 : FVec F S50 .f32) (main_arg12 : FVec F S50 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S50 .f32 := Host.absf main_arg11
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S50 .f32 := Host.absf main_arg12
  let main_cst_22 : FVec F S_ .f32 := constant S_ .f32 0x7F800000#32
  let main_v60 : FVec F S50 .f32 := broadcastInDim S50 ![] bcast_S_S50 main_cst_22
  let main_v61 : IVec S50 1 := cmpf .olt main_v59 main_v60
  let main_c_23 : IVec S_ 1 := constantI S_ 1 1#1
  let main_v62 : IVec S_ 1 := (fun x v => Host.reduce IntOp.andi x v reducesTo_S50_S_d0 h_S_) main_v61 main_c_23
  let main_v63 : IVec S_ 1 := andi main_v58 main_v62
  let main_cst_24 : FVec F S_ .f32 := constant S_ .f32 0x00000000#32
  let main_v64 : FVec F S2048 .f32 := broadcastInDim S2048 ![] bcast_S_S2048 main_cst_24
  let main_v65 : IVec S2048 1 := cmpf .oge main_arg8 main_v64
  let main_c_25 : IVec S_ 1 := constantI S_ 1 1#1
  let main_v66 : IVec S_ 1 := (fun x v => Host.reduce IntOp.andi x v reducesTo_S2048_S_d0 h_S_) main_v65 main_c_25
  let main_v67 : IVec S_ 1 := andi main_v63 main_v66
  fn_part4 (F := F) main_arg10 main_arg12 main_v67

def fn_part2 {F : FTy → Type} [FloatOps F] (main_arg7 : FVec F S2048 .f32) (main_arg8 : FVec F S2048 .f32) (main_arg9 : FVec F S100 .f32) (main_arg10 : FVec F S100 .f32) (main_arg11 : FVec F S50 .f32) (main_arg12 : FVec F S50 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S100 .f32 := Host.absf main_arg9
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg8 main_arg10 main_arg11 main_arg12 main_v48 main_v49 main_v50

def fn_part1 {F : FTy → Type} [FloatOps F] (main_arg4 : FVec F S50 .f32) (main_arg5 : FVec F S2048x50 .f32) (main_arg6 : FVec F S2048 .f32) (main_arg7 : FVec F S2048 .f32) (main_arg8 : FVec F S2048 .f32) (main_arg9 : FVec F S100 .f32) (main_arg10 : FVec F S100 .f32) (main_arg11 : FVec F S50 .f32) (main_arg12 : FVec F S50 .f32) (main_v13 : IVec S_ 1) (main_v16 : IVec S50x100 1) : IVec S_ 1 :=
  let main_c_5 : IVec S_ 1 := constantI S_ 1 1#1
  let main_v17 : IVec S_ 1 := (fun x v => Host.reduce IntOp.andi x v reducesTo_S50x100_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S2048x50 .f32 := Host.absf main_arg5
  let main_cst_8 : FVec F S_ .f32 := constant S_ .f32 0x7F800000#32
  let main_v25 : FVec F S2048x50 .f32 := broadcastInDim S2048x50 ![] bcast_S_S2048x50 main_cst_8
  let main_v26 : IVec S2048x50 1 := cmpf .olt main_v24 main_v25
  let main_c_9 : IVec S_ 1 := constantI S_ 1 1#1
  let main_v27 : IVec S_ 1 := (fun x v => Host.reduce IntOp.andi x v reducesTo_S2048x50_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x2048 .f32) (main_arg1 : FVec F S100x2048 .f32) (main_arg2 : FVec F S100 .f32) (main_arg3 : FVec F S50x100 .f32) (main_arg4 : FVec F S50 .f32) (main_arg5 : FVec F S2048x50 .f32) (main_arg6 : FVec F S2048 .f32) (main_arg7 : FVec F S2048 .f32) (main_arg8 : FVec F S2048 .f32) (main_arg9 : FVec F S100 .f32) (main_arg10 : FVec F S100 .f32) (main_arg11 : FVec F S50 .f32) (main_arg12 : FVec F S50 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S100x2048 .f32 := Host.absf main_arg1
  let main_cst_0 : FVec F S_ .f32 := constant S_ .f32 0x7F800000#32
  let main_v5 : FVec F S100x2048 .f32 := broadcastInDim S100x2048 ![] bcast_S_S100x2048 main_cst_0
  let main_v6 : IVec S100x2048 1 := cmpf .olt main_v4 main_v5
  let main_c_1 : IVec S_ 1 := constantI S_ 1 1#1
  let main_v7 : IVec S_ 1 := (fun x v => Host.reduce IntOp.andi x v reducesTo_S100x2048_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S50x100 .f32 := Host.absf main_arg3
  let main_cst_4 : FVec F S_ .f32 := constant S_ .f32 0x7F800000#32
  let main_v15 : FVec F S50x100 .f32 := broadcastInDim S50x100 ![] bcast_S_S50x100 main_cst_4
  let main_v16 : IVec S50x100 1 := cmpf .olt main_v14 main_v15
  fn_part1 (F := F) main_arg4 main_arg5 main_arg6 main_arg7 main_arg8 main_arg9 main_arg10 main_arg11 main_arg12 main_v13 main_v16
-- ==== Kernel.lean ====
abbrev S8192x2048 : Shape := ⟨2, ![8192, 2048]⟩
abbrev S100x2048 : Shape := ⟨2, ![100, 2048]⟩
abbrev S100 : Shape := ⟨1, ![100]⟩
abbrev S50x100 : Shape := ⟨2, ![50, 100]⟩
abbrev S50 : Shape := ⟨1, ![50]⟩
abbrev S2048x50 : Shape := ⟨2, ![2048, 50]⟩
abbrev S2048 : Shape := ⟨1, ![2048]⟩
abbrev S1x100 : Shape := ⟨2, ![1, 100]⟩
abbrev S1x50 : Shape := ⟨2, ![1, 50]⟩
abbrev S1x2048 : Shape := ⟨2, ![1, 2048]⟩
abbrev S1024x2048 : Shape := ⟨2, ![1024, 2048]⟩
abbrev S1024x50 : Shape := ⟨2, ![1024, 50]⟩
abbrev S1x1024 : Shape := ⟨2, ![1, 1024]⟩
abbrev S1024x1024 : Shape := ⟨2, ![1024, 1024]⟩
abbrev S1024x100 : Shape := ⟨2, ![1024, 100]⟩

abbrev nBuf : Space → Nat
  | .hbm => 23
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S100x2048, .f32⟩
  | .hbm, ⟨2, _⟩ => ⟨S100, .f32⟩
  | .hbm, ⟨3, _⟩ => ⟨S50x100, .f32⟩
  | .hbm, ⟨4, _⟩ => ⟨S50, .f32⟩
  | .hbm, ⟨5, _⟩ => ⟨S2048x50, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S100, .f32⟩
  | .hbm, ⟨10, _⟩ => ⟨S100, .f32⟩
  | .hbm, ⟨11, _⟩ => ⟨S50, .f32⟩
  | .hbm, ⟨12, _⟩ => ⟨S50, .f32⟩
  | .hbm, ⟨13, _⟩ => ⟨S1x100, .f32⟩
  | .hbm, ⟨14, _⟩ => ⟨S1x50, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x100, .f32⟩
  | .hbm, ⟨19, _⟩ => ⟨S1x100, .f32⟩
  | .hbm, ⟨20, _⟩ => ⟨S1x50, .f32⟩
  | .hbm, ⟨21, _⟩ => ⟨S1x50, .f32⟩
  | .hbm, ⟨22, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S100x2048, .f32⟩
  | .local _ .vmem, ⟨3, _⟩ => ⟨S1x100, .f32⟩
  | .local _ .vmem, ⟨4, _⟩ => ⟨S50x100, .f32⟩
  | .local _ .vmem, ⟨5, _⟩ => ⟨S1x50, .f32⟩
  | .local _ .vmem, ⟨6, _⟩ => ⟨S1024x50, .f32⟩
  | .local _ .vmem, ⟨7, _⟩ => ⟨S1024x50, .f32⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S1x100, .f32⟩
  | .local _ .vmem, ⟨13, _⟩ => ⟨S1x100, .f32⟩
  | .local _ .vmem, ⟨14, _⟩ => ⟨S1x50, .f32⟩
  | .local _ .vmem, ⟨15, _⟩ => ⟨S1x50, .f32⟩
  | .local _ .vmem, ⟨16, _⟩ => ⟨S1024x1024, .f32⟩
  | .local _ .vmem, ⟨17, _⟩ => ⟨S1024x1024, .f32⟩
  | .local _ .vmem, ⟨18, _⟩ => ⟨S100x2048, .f32⟩
  | .local _ .vmem, ⟨19, _⟩ => ⟨S1x100, .f32⟩
  | .local _ .vmem, ⟨20, _⟩ => ⟨S1024x50, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S100x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S50x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S100_S1x100 : S100.ShapeCasts S1x100
  shapeCasts_S50_S1x50 : S50.ShapeCasts S1x50
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S100x2048_S100x2048_0_0 : ∀ a, (![0, 0] : Fin 2 → Nat) a + S100x2048.size a ≤ S100x2048.size a
  h_S100x2048 : 0 < S100x2048.numel
  broadcasts_S1x2048_S100x2048 : S1x2048.Broadcasts S100x2048
  shapeCasts_S100x2048_S100x2048 : S100x2048.ShapeCasts S100x2048
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S1024x2048_S1024x2048_0_0 : ∀ a, (![0, 0] : Fin 2 → Nat) a + S1024x2048.size a ≤ S1024x2048.size a
  h_S1024x2048 : 0 < S1024x2048.numel
  broadcasts_S1x100_S1024x100 : S1x100.Broadcasts S1024x100
  inb_S50x100_S50x100_0_0 : ∀ a, (![0, 0] : Fin 2 → Nat) a + S50x100.size a ≤ S50x100.size a
  h_S50x100 : 0 < S50x100.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S1024x50 : S1x50.Broadcasts S1024x50
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1x2048_S100x2048_S1x100_1_1_0_0_n_n_wf : DotDims.WF S1x2048 S100x2048 S1x100 [1] [1] [0] [0] [] []
  dot_S1024x2048_S100x2048_S1024x100_1_1_0_0_n_n_wf : DotDims.WF S1024x2048 S100x2048 S1024x100 [1] [1] [0] [0] [] []
  dot_S1024x100_S50x100_S1024x50_1_1_0_0_n_n_wf : DotDims.WF S1024x100 S50x100 S1024x50 [1] [1] [0] [0] [] []
  dot_S1024x50_S1024x50_S1024x1024_1_1_0_0_n_n_wf : DotDims.WF S1024x50 S1024x50 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x2048.size a ≤ S100x2048.size a
  hwx0_1 : ∀ i : grid0.Coords, EltTy.bits .f32 = 32 ∨ (Rect.block (s := S100x2048) S100x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x100.size a ≤ S50x100.size a
  hwx0_3 : ∀ i : grid0.Coords, EltTy.bits .f32 = 32 ∨ (Rect.block (s := S50x100) S50x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x50.size a ≤ S2048x50.size a
  hwx0_5 : ∀ i : grid0.Coords, EltTy.bits .f32 = 32 ∨ (Rect.block (s := S2048x50) S1024x50.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x2048.size a
  hwx0_6 : ∀ i : grid0.Coords, EltTy.bits .f32 = 32 ∨ (Rect.block (s := S1x2048) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x100.size a ≤ S1x100.size a
  hwx0_9 : ∀ i : grid0.Coords, EltTy.bits .f32 = 32 ∨ (Rect.block (s := S1x100) S1x100.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x100.size a ≤ S1x100.size a
  hwx0_10 : ∀ i : grid0.Coords, EltTy.bits .f32 = 32 ∨ (Rect.block (s := S1x100) S1x100.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x50.size a ≤ S1x50.size a
  hwx0_11 : ∀ i : grid0.Coords, EltTy.bits .f32 = 32 ∨ (Rect.block (s := S1x50) S1x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x50.size a ≤ S1x50.size a
  hwx0_12 : ∀ i : grid0.Coords, EltTy.bits .f32 = 32 ∨ (Rect.block (s := S1x50) S1x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S8192x2048.size a
  hwx0_13 : ∀ i : grid0.Coords, EltTy.bits .f32 = 32 ∨ (Rect.block (s := S8192x2048) S1024x1024.size (cc0_transform_13 i) (hinb0_13 i)).WholeWords (EltTy.packing .f32)

variable [Facts₀]

def dot_S1x2048_S100x2048_S1x100_1_1_0_0_n_n : DotDims S1x2048 S100x2048 S1x100 where
  lhsContracting := [1]
  rhsContracting := [1]
  lhsNonContracting := [0]
  rhsNonContracting := [0]
  lhsBatch := []
  rhsBatch := []
  wf := dot_S1x2048_S100x2048_S1x100_1_1_0_0_n_n_wf
def dot_S1024x2048_S100x2048_S1024x100_1_1_0_0_n_n : DotDims S1024x2048 S100x2048 S1024x100 where
  lhsContracting := [1]
  rhsContracting := [1]
  lhsNonContracting := [0]
  rhsNonContracting := [0]
  lhsBatch := []
  rhsBatch := []
  wf := dot_S1024x2048_S100x2048_S1024x100_1_1_0_0_n_n_wf
def dot_S1024x100_S50x100_S1024x50_1_1_0_0_n_n : DotDims S1024x100 S50x100 S1024x50 where
  lhsContracting := [1]
  rhsContracting := [1]
  lhsNonContracting := [0]
  rhsNonContracting := [0]
  lhsBatch := []
  rhsBatch := []
  wf := dot_S1024x100_S50x100_S1024x50_1_1_0_0_n_n_wf
def dot_S1024x50_S1024x50_S1024x1024_1_1_0_0_n_n : DotDims S1024x50 S1024x50 S1024x1024 where
  lhsContracting := [1]
  rhsContracting := [1]
  lhsNonContracting := [0]
  rhsNonContracting := [0]
  lhsBatch := []
  rhsBatch := []
  wf := dot_S1024x50_S1024x50_S1024x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x50.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v5) S1x100.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v6) S1x100.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v7) S1x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v8) S1x50.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1024x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S100x2048 : Shape := ⟨2, ![100, 2048]⟩
abbrev S100 : Shape := ⟨1, ![100]⟩
abbrev S50x100 : Shape := ⟨2, ![50, 100]⟩
abbrev S50 : Shape := ⟨1, ![50]⟩
abbrev S2048x50 : Shape := ⟨2, ![2048, 50]⟩
abbrev S2048 : Shape := ⟨1, ![2048]⟩
abbrev S_ : Shape := ⟨0, ![]⟩
abbrev S8192 : Shape := ⟨1, ![8192]⟩
abbrev S1x2048 : Shape := ⟨2, ![1, 2048]⟩
abbrev S2048x100 : Shape := ⟨2, ![2048, 100]⟩
abbrev S8192x100 : Shape := ⟨2, ![8192, 100]⟩
abbrev S1x100 : Shape := ⟨2, ![1, 100]⟩
abbrev S100x50 : Shape := ⟨2, ![100, 50]⟩
abbrev S8192x50 : Shape := ⟨2, ![8192, 50]⟩
abbrev S1x50 : Shape := ⟨2, ![1, 50]⟩
abbrev S50x2048 : Shape := ⟨2, ![50, 2048]⟩
abbrev S8192x1 : Shape := ⟨2, ![8192, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S100x2048, .f32⟩
  | .hbm, ⟨2, _⟩ => ⟨S100, .f32⟩
  | .hbm, ⟨3, _⟩ => ⟨S50x100, .f32⟩
  | .hbm, ⟨4, _⟩ => ⟨S50, .f32⟩
  | .hbm, ⟨5, _⟩ => ⟨S2048x50, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S100, .f32⟩
  | .hbm, ⟨10, _⟩ => ⟨S100, .f32⟩
  | .hbm, ⟨11, _⟩ => ⟨S50, .f32⟩
  | .hbm, ⟨12, _⟩ => ⟨S50, .f32⟩
  | .hbm, ⟨13, _⟩ => ⟨S_, .i32⟩
  | .hbm, ⟨14, _⟩ => ⟨S8192, .i32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S2048x100, .f32⟩
  | .hbm, ⟨26, _⟩ => ⟨S8192x100, .f32⟩
  | .hbm, ⟨27, _⟩ => ⟨S1x100, .f32⟩
  | .hbm, ⟨28, _⟩ => ⟨S8192x100, .f32⟩
  | .hbm, ⟨29, _⟩ => ⟨S8192x100, .f32⟩
  | .hbm, ⟨30, _⟩ => ⟨S_, .f32⟩
  | .hbm, ⟨31, _⟩ => ⟨S8192x100, .f32⟩
  | .hbm, ⟨32, _⟩ => ⟨S8192x100, .f32⟩
  | .hbm, ⟨33, _⟩ => ⟨S1x100, .f32⟩
  | .hbm, ⟨34, _⟩ => ⟨S8192x100, .f32⟩
  | .hbm, ⟨35, _⟩ => ⟨S8192x100, .f32⟩
  | .hbm, ⟨36, _⟩ => ⟨S_, .f32⟩
  | .hbm, ⟨37, _⟩ => ⟨S100, .f32⟩
  | .hbm, ⟨38, _⟩ => ⟨S100, .f32⟩
  | .hbm, ⟨39, _⟩ => ⟨S100, .f32⟩
  | .hbm, ⟨40, _⟩ => ⟨S1x100, .f32⟩
  | .hbm, ⟨41, _⟩ => ⟨S8192x100, .f32⟩
  | .hbm, ⟨42, _⟩ => ⟨S8192x100, .f32⟩
  | .hbm, ⟨43, _⟩ => ⟨S100x50, .f32⟩
  | .hbm, ⟨44, _⟩ => ⟨S8192x50, .f32⟩
  | .hbm, ⟨45, _⟩ => ⟨S1x50, .f32⟩
  | .hbm, ⟨46, _⟩ => ⟨S8192x50, .f32⟩
  | .hbm, ⟨47, _⟩ => ⟨S8192x50, .f32⟩
  | .hbm, ⟨48, _⟩ => ⟨S_, .f32⟩
  | .hbm, ⟨49, _⟩ => ⟨S8192x50, .f32⟩
  | .hbm, ⟨50, _⟩ => ⟨S8192x50, .f32⟩
  | .hbm, ⟨51, _⟩ => ⟨S1x50, .f32⟩
  | .hbm, ⟨52, _⟩ => ⟨S8192x50, .f32⟩
  | .hbm, ⟨53, _⟩ => ⟨S8192x50, .f32⟩
  | .hbm, ⟨54, _⟩ => ⟨S_, .f32⟩
  | .hbm, ⟨55, _⟩ => ⟨S50, .f32⟩
  | .hbm, ⟨56, _⟩ => ⟨S50, .f32⟩
  | .hbm, ⟨57, _⟩ => ⟨S50, .f32⟩
  | .hbm, ⟨58, _⟩ => ⟨S1x50, .f32⟩
  | .hbm, ⟨59, _⟩ => ⟨S8192x50, .f32⟩
  | .hbm, ⟨60, _⟩ => ⟨S8192x50, .f32⟩
  | .hbm, ⟨61, _⟩ => ⟨S50x2048, .f32⟩
  | .hbm, ⟨62, _⟩ => ⟨S8192x2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S8192x1, .i1⟩
  | .hbm, ⟨70, _⟩ => ⟨S_, .f32⟩
  | .hbm, ⟨71, _⟩ => ⟨S8192x2048, .f32⟩
  | .hbm, ⟨72, _⟩ => ⟨S8192x2048, .i1⟩
  | .hbm, ⟨73, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_call2_v0 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S2048 : S_.BroadcastsInDim S2048 (![] : Fin 0 → Fin S2048.rank)
  transposes_S100x2048_S2048x100_1_0 : S100x2048.Transposes [1, 0] S2048x100
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  bcast_S_S8192x100 : S_.BroadcastsInDim S8192x100 (![] : Fin 0 → Fin S8192x100.rank)
  bcast_S_S100 : S_.BroadcastsInDim S100 (![] : Fin 0 → Fin S100.rank)
  transposes_S50x100_S100x50_1_0 : S50x100.Transposes [1, 0] S100x50
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  bcast_S_S8192x50 : S_.BroadcastsInDim S8192x50 (![] : Fin 0 → Fin S8192x50.rank)
  bcast_S_S50 : S_.BroadcastsInDim S50 (![] : Fin 0 → Fin S50.rank)
  transposes_S2048x50_S50x2048_1_0 : S2048x50.Transposes [1, 0] S50x2048
  bcast_S8192_S8192x1_0 : S8192.BroadcastsInDim S8192x1 (![0] : Fin 1 → Fin S8192x1.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  dot_S8192x2048_S2048x100_S8192x100_1_0_0_1_n_n_wf : DotDims.WF S8192x2048 S2048x100 S8192x100 [1] [0] [0] [1] [] []
  dot_S8192x100_S100x50_S8192x50_1_0_0_1_n_n_wf : DotDims.WF S8192x100 S100x50 S8192x50 [1] [0] [0] [1] [] []
  dot_S8192x50_S50x2048_S8192x2048_1_0_0_1_n_n_wf : DotDims.WF S8192x50 S50x2048 S8192x2048 [1] [0] [0] [1] [] []

variable [Facts₀]

def dot_S8192x2048_S2048x100_S8192x100_1_0_0_1_n_n : DotDims S8192x2048 S2048x100 S8192x100 where
  lhsContracting := [1]
  rhsContracting := [0]
  lhsNonContracting := [0]
  rhsNonContracting := [1]
  lhsBatch := []
  rhsBatch := []
  wf := dot_S8192x2048_S2048x100_S8192x100_1_0_0_1_n_n_wf
def dot_S8192x100_S100x50_S8192x50_1_0_0_1_n_n : DotDims S8192x100 S100x50 S8192x50 where
  lhsContracting := [1]
  rhsContracting := [0]
  lhsNonContracting := [0]
  rhsNonContracting := [1]
  lhsBatch := []
  rhsBatch := []
  wf := dot_S8192x100_S100x50_S8192x50_1_0_0_1_n_n_wf
def dot_S8192x50_S50x2048_S8192x2048_1_0_0_1_n_n : DotDims S8192x50 S50x2048 S8192x2048 where
  lhsContracting := [1]
  rhsContracting := [0]
  lhsNonContracting := [0]
  rhsNonContracting := [1]
  lhsBatch := []
  rhsBatch := []
  wf := dot_S8192x50_S50x2048_S8192x2048_1_0_0_1_n_n_wf

class Facts : Prop extends Facts₀ where

variable [Facts]
-- ==== Proof.Spec.lean ====
/-
  The mathematics of the certificate, with no program in sight: a three-layer perceptron with three input
  normalisations, over the extended reals, written twice.

  The first writing normalises by MULTIPLYING with the reciprocal square root, and folds the first normalisation into
  the first layer: with s d = rsqrt (v0 d + ε), the first layer is  Σ_d x d · (W1 j d · s d) + (b1 j − Σ_d (m0 d · s d) · W1 j d).
  The second writing normalises by DIVIDING by the square root, in place: Σ_d ((x d − m0 d) / sqrt (v0 d + ε)) · W1 j d + b1 j.

  On the extended reals the two agree when every input is a real number and the three variances are non-negative
  (so that v + ε > 0): then a / sqrt p = a · rsqrt p for every extended real a, and the folding of the first
  normalisation is distributivity of real multiplication over a finite sum — which is where finiteness is used: with an
  infinite x or s the law x·(w·s) − (m·s)·w = ((x − m)·s)·w fails.
-/
import Idealize.ShloMosaic.PureOps.Ideal
import Idealize.ShloMosaic.PureOps.Ideal.Laws
import Idealize.ShloMosaic.Lib.ValueIdx

noncomputable section

namespace Cert.Spec

open Idealize.ShloMosaic

/-- The stabiliser ε added to each variance: the f32 word nearest 1e-5, read exactly. -/
abbrev eps : EReal := Ideal.ofBits .f32 0x3727C5AC#32
/-- The floor of the rectifier, as the word both programs carry (it is never evaluated: it is the same on both sides). -/
abbrev z0 : EReal := Ideal.ofBits .f32 0x00000000#32

/-- ε is a positive real. -/
theorem eps_pos : ∃ e : ℝ, 0 < e ∧ eps = (e : EReal) := by
  refine ⟨_, ?_, by simp [eps, Ideal.ofBits, Ideal.ieee]; rfl⟩
  norm_num

section Defs

variable (X : Fin 8192 → Fin 2048 → EReal) (W1 : Fin 100 → Fin 2048 → EReal) (b1 : Fin 100 → EReal)
  (W2 : Fin 50 → Fin 100 → EReal) (b2 : Fin 50 → EReal) (W3 : Fin 2048 → Fin 50 → EReal) (b3 : Fin 2048 → EReal)
  (m0 v0 : Fin 2048 → EReal) (m1 v1 : Fin 100 → EReal) (m2 v2 : Fin 50 → EReal)

/-! ### Normalising by a product, the first normalisation folded into the first layer -/

/-- The first normalisation's scale per input column. -/
def s0 (d : Fin 2048) : EReal := Ideal.rsqrt (v0 d + eps)
/-- The first layer's weights with the scale folded in. -/
def w1s (j : Fin 100) (d : Fin 2048) : EReal := W1 j d * s0 v0 d
/-- The first layer's bias with the shift folded in. -/
def b1s (j : Fin 100) : EReal := b1 j - ∑ d : Fin 2048, (m0 d * s0 v0 d) * W1 j d
/-- The first hidden layer, rectified and normalised. -/
def hK (r : Fin 8192) (j : Fin 100) : EReal :=
  (max (∑ d : Fin 2048, X r d * w1s W1 v0 j d + b1s W1 b1 m0 v0 j) z0 - m1 j) * Ideal.rsqrt (v1 j + eps)
/-- The second hidden layer, rectified and normalised. -/
def gK (r : Fin 8192) (k : Fin 50) : EReal :=
  (max (∑ j : Fin 100, hK X W1 b1 m0 v0 m1 v1 r j * W2 k j + b2 k) z0 - m2 k) * Ideal.rsqrt (v2 k + eps)
/-- The output layer. -/
def outK (r : Fin 8192) (q : Fin 2048) : EReal :=
  ∑ k : Fin 50, gK X W1 b1 W2 b2 m0 v0 m1 v1 m2 v2 r k * W3 q k + b3 q

/-! ### Normalising by a quotient, in place -/

def hR (r : Fin 8192) (j : Fin 100) : EReal :=
  Ideal.div (max (∑ d : Fin 2048, Ideal.div (X r d - m0 d) (Ideal.sqrt (v0 d + eps)) * W1 j d + b1 j) z0 - m1 j) (Ideal.sqrt (v1 j + eps))
def gR (r : Fin 8192) (k : Fin 50) : EReal :=
  Ideal.div (max (∑ j : Fin 100, hR X W1 b1 m0 v0 m1 v1 r j * W2 k j + b2 k) z0 - m2 k) (Ideal.sqrt (v2 k + eps))
def outR (r : Fin 8192) (q : Fin 2048) : EReal :=
  ∑ k : Fin 50, gR X W1 b1 W2 b2 m0 v0 m1 v1 m2 v2 r k * W3 q k + b3 q

end Defs

/-! ### The two writings agree -/

/-- The coercion of a finite real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by the square root of a positive real is multiplying by its reciprocal square root, for every dividend. -/
theorem div_sqrt_eq_mul_rsqrt (a : EReal) {p : ℝ} (hp : 0 < p) :
    Ideal.div a (Ideal.sqrt (p : EReal)) = a * Ideal.rsqrt (p : EReal) := by
  have hs : Real.sqrt p ≠ 0 := (Real.sqrt_pos.mpr hp).ne'
  rw [Ideal.sqrt_coe, if_neg (not_lt.mpr hp.le), Ideal.rsqrt_coe, if_neg (not_lt.mpr hp.le), if_neg hp.ne',
    Ideal.div_coe hs, one_div]

/-- The reciprocal square root of a positive real is a real. -/
theorem rsqrt_coe_pos {p : ℝ} (hp : 0 < p) : Ideal.rsqrt (p : EReal) = (((Real.sqrt p)⁻¹ : ℝ) : EReal) := by
  rw [Ideal.rsqrt_coe, if_neg (not_lt.mpr hp.le), if_neg hp.ne']

/-- Folding a shift and a scale into a layer, over the reals: distributivity over the sum. -/
theorem fold_law {n : Nat} (x w s m : Fin n → ℝ) (b : ℝ) :
    (∑ d : Fin n, (x d : EReal) * ((w d : EReal) * (s d : EReal))) + ((b : EReal) - ∑ d : Fin n, ((m d : EReal) * (s d : EReal)) * (w d : EReal))
      = (∑ d : Fin n, (((x d : EReal) - (m d : EReal)) * (s d : EReal)) * (w d : EReal)) + (b : EReal) := by
  simp only [← EReal.coe_mul, ← EReal.coe_sub, ← coe_sum, ← EReal.coe_add]
  refine congrArg _ ?_
  have h : ∀ d, ((x d - m d) * s d) * w d = x d * (w d * s d) - (m d * s d) * w d := fun d => by ring
  simp only [h, Finset.sum_sub_distrib]
  ring

/-- A non-negative real variance plus ε is a positive real. -/
theorem var_pos (v : EReal) (hv : ∃ y : ℝ, v = y) (hn : 0 ≤ v) : ∃ p : ℝ, 0 < p ∧ v + eps = (p : EReal) := by
  obtain ⟨e, he, hee⟩ := eps_pos
  obtain ⟨y, rfl⟩ := hv
  have hy : 0 ≤ y := EReal.coe_nonneg.1 hn
  exact ⟨y + e, by linarith, by rw [hee, EReal.coe_add]⟩

/-- So dividing by the square root of such a variance plus ε is multiplying by its reciprocal square root. -/
theorem div_eq (v : EReal) (hv : ∃ y : ℝ, v = y) (hn : 0 ≤ v) (a : EReal) :
    Ideal.div a (Ideal.sqrt (v + eps)) = a * Ideal.rsqrt (v + eps) := by
  obtain ⟨p, hp, e⟩ := var_pos v hv hn
  rw [e]
  exact div_sqrt_eq_mul_rsqrt a hp

section Agree

variable (X : Fin 8192 → Fin 2048 → EReal) (W1 : Fin 100 → Fin 2048 → EReal) (b1 : Fin 100 → EReal)
  (W2 : Fin 50 → Fin 100 → EReal) (b2 : Fin 50 → EReal) (W3 : Fin 2048 → Fin 50 → EReal) (b3 : Fin 2048 → EReal)
  (m0 v0 : Fin 2048 → EReal) (m1 v1 : Fin 100 → EReal) (m2 v2 : Fin 50 → EReal)
  (hX : ∀ r d, ∃ y : ℝ, X r d = y) (hW1 : ∀ j d, ∃ y : ℝ, W1 j d = y) (hb1 : ∀ j, ∃ y : ℝ, b1 j = y)
  (hm0 : ∀ d, ∃ y : ℝ, m0 d = y) (hv0 : ∀ d, ∃ y : ℝ, v0 d = y) (hv1 : ∀ j, ∃ y : ℝ, v1 j = y) (hv2 : ∀ k, ∃ y : ℝ, v2 k = y)
  (n0 : ∀ d, 0 ≤ v0 d) (n1 : ∀ j, 0 ≤ v1 j) (n2 : ∀ k, 0 ≤ v2 k)

include hX hW1 hb1 hm0 hv0 hv1 n0 n1 in
/-- The first hidden layer: the folded writing is the in-place one (distributivity over the reals). -/
theorem hK_eq_hR (r : Fin 8192) (j : Fin 100) : hK X W1 b1 m0 v0 m1 v1 r j = hR X W1 b1 m0 v0 m1 v1 r j := by
  unfold hK hR
  rw [div_eq (v1 j) (hv1 j) (n1 j)]
  have hd : ∀ (d : Fin 2048) (a : EReal), Ideal.div a (Ideal.sqrt (v0 d + eps)) = a * s0 v0 d :=
    fun d a => div_eq (v0 d) (hv0 d) (n0 d) a
  simp only [hd]
  choose x' hx' using hX
  choose w' hw' using hW1
  choose b' hb' using hb1
  choose m' hm' using hm0
  choose p hp hpe using fun d => var_pos (v0 d) (hv0 d) (n0 d)
  have hs : ∀ d, s0 v0 d = (((Real.sqrt (p d))⁻¹ : ℝ) : EReal) := fun d => by
    unfold s0
    rw [hpe d]
    exact rsqrt_coe_pos (hp d)
  refine congrArg (fun t => (max t z0 - m1 j) * Ideal.rsqrt (v1 j + eps)) ?_
  simp only [w1s, b1s, hx', hw', hb', hm', hs]
  exact fold_law (x' r) (w' j) (fun d => (Real.sqrt (p d))⁻¹) m' (b' j)

include hX hW1 hb1 hm0 hv0 hv1 hv2 n0 n1 n2 in
/-- The second hidden layer. -/
theorem gK_eq_gR (r : Fin 8192) (k : Fin 50) :
    gK X W1 b1 W2 b2 m0 v0 m1 v1 m2 v2 r k = gR X W1 b1 W2 b2 m0 v0 m1 v1 m2 v2 r k := by
  unfold gK gR
  rw [div_eq (v2 k) (hv2 k) (n2 k)]
  simp only [hK_eq_hR X W1 b1 m0 v0 m1 v1 hX hW1 hb1 hm0 hv0 hv1 n0 n1]

include hX hW1 hb1 hm0 hv0 hv1 hv2 n0 n1 n2 in
/-- The output: the two writings of the perceptron agree. -/
theorem outK_eq_outR (r : Fin 8192) (q : Fin 2048) :
    outK X W1 b1 W2 b2 W3 b3 m0 v0 m1 v1 m2 v2 r q = outR X W1 b1 W2 b2 W3 b3 m0 v0 m1 v1 m2 v2 r q := by
  unfold outK outR
  simp only [gK_eq_gR X W1 b1 W2 b2 m0 v0 m1 v1 m2 v2 hX hW1 hb1 hm0 hv0 hv1 hv2 n0 n1 n2]

end Agree

end Cert.Spec

end
-- ==== Proof.LibDotT.lean ====
/-
  A matrix product whose right factor is contracted on its LAST axis (an M×K matrix times the transpose of an N×K
  matrix), into the zero matrix, at the ideal values: its entry (r, c) is the sum over k of (r, k) times (c, k).
  Nothing here mentions a program: literal ranks, symbolic extents.
-/
import Idealize.ShloMosaic.PureOps.Ideal.Laws
import Idealize.ShloMosaic.Lib.ValueIdx

noncomputable section

namespace Cert.DotT

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's ROW coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- The product of an M×K matrix with the transpose of an N×K matrix, into the zero matrix, at entry (r, c): the sum
    over k of (r, k) times (c, k). -/
theorem matmul_apply {M K N : Nat} {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.DotT

end
-- ==== Proof.Payloads.lean ====
import proofs.«130700_g46557445488815_cont_8to1_c_1023_11_alg».proof.Proof.Gen.KernelIdeal.Skeleton
import proofs.«130700_g46557445488815_cont_8to1_c_1023_11_alg».proof.Proof.Spec
import proofs.«130700_g46557445488815_cont_8to1_c_1023_11_alg».proof.Proof.LibDotT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx

/-! The body's seven pure values, each read at an entry, at the ideal values: the scale of a normalisation, the folded
    weights and bias, one row block through the two hidden layers, and the output layer. Every product is against a
    right factor contracted on its last axis, so its entry (r, c) sums (r, k)·(c, k). -/

namespace Cert.KernelIdeal.Payloads

open Cert.KernelIdeal Cert.KernelIdeal.Gen Cert.Spec

/-- The scale: the reciprocal square root of variance plus ε, column by column. -/
theorem pay1_apply (v16 : Vec Ideal S1x2048 .f32) (d : Fin 2048) :
    k0_pay1 (F := Ideal) v16 (ix2 (0 : Fin 1) d) = Ideal.rsqrt (v16 (ix2 (0 : Fin 1) d) + eps) := by
  unfold k0_pay1
  rw [shapeCast_self]
  rfl

/-- The folded weights: each weight times its column's scale. -/
theorem pay2_apply (v16 : Vec Ideal S1x2048 .f32) (v21 : Vec Ideal S100x2048 .f32) (j : Fin 100) (d : Fin 2048) :
    k0_pay2 (F := Ideal) v16 v21 (ix2 j d) = v21 (ix2 j d) * Ideal.rsqrt (v16 (ix2 (0 : Fin 1) d) + eps) := by
  unfold k0_pay2
  rw [shapeCast_self]
  show v21 (ix2 j d) * broadcastTo S100x2048 (k0_pay1 (F := Ideal) v16) broadcasts_S1x2048_S100x2048 (ix2 j d) = _
  rw [broadcastTo_1b_ab_apply, pay1_apply]

/-- The folded bias: the bias minus the scaled shift pushed through the weights. -/
theorem pay3_apply (v16 : Vec Ideal S1x2048 .f32) (v27 : Vec Ideal S1x100 .f32) (v29 : Vec Ideal S1x2048 .f32)
    (v32 : Vec Ideal S100x2048 .f32) (j : Fin 100) :
    k0_pay3 (F := Ideal) v16 v27 v29 v32 (ix2 (0 : Fin 1) j)
      = v27 (ix2 (0 : Fin 1) j) - ∑ d : Fin 2048, (v29 (ix2 (0 : Fin 1) d) * Ideal.rsqrt (v16 (ix2 (0 : Fin 1) d) + eps)) * v32 (ix2 j d) := by
  unfold k0_pay3
  rw [shapeCast_self, shapeCast_self, shapeCast_self]
  show v27 (ix2 (0 : Fin 1) j) - matmul (DotDims.transposedRhs 1 2048 100) none (mulf v29 (k0_pay1 (F := Ideal) v16)) v32
      (constant (F := Ideal) ⟨2, ![1, 100]⟩ .f32 0x00000000#32) (ix2 (0 : Fin 1) j) = _
  rw [DotT.matmul_apply]
  refine congrArg (v27 (ix2 (0 : Fin 1) j) - ·) (Finset.sum_congr rfl fun d _ => ?_)
  show (v29 (ix2 (0 : Fin 1) d) * k0_pay1 (F := Ideal) v16 (ix2 (0 : Fin 1) d)) * _ = _
  rw [pay1_apply]

/-- The second normalisation's scale. -/
theorem pay7_apply (v47 : Vec Ideal S1x50 .f32) (k : Fin 50) :
    k0_pay7 (F := Ideal) v47 (ix2 (0 : Fin 1) k) = Ideal.rsqrt (v47 (ix2 (0 : Fin 1) k) + eps) := by
  unfold k0_pay7
  rw [shapeCast_self]
  rfl

/-- The second hidden layer scaled. -/
theorem pay4_apply (v46 : FVec Ideal S1024x50 .f32) (v51 : FVec Ideal S1x50 .f32) (p : Fin 1024) (k : Fin 50) :
    k0_pay4 (F := Ideal) v46 v51 (ix2 p k) = v46 (ix2 p k) * v51 (ix2 (0 : Fin 1) k) := by
  unfold k0_pay4
  rw [shapeCast_self]
  show v46 (ix2 p k) * broadcastTo S1024x50 v51 broadcasts_S1x50_S1024x50 (ix2 p k) = _
  rw [broadcastTo_1b_ab_apply]

/-- The output layer on one block of rows and one block of columns. -/
theorem pay5_apply (v8 : Vec Ideal S1024x50 .f32) (v9 : Vec Ideal S1024x50 .f32) (v11 : Vec Ideal S1x1024 .f32) (p q : Fin 1024) :
    k0_pay5 (F := Ideal) v8 v9 v11 (ix2 p q) = ∑ k : Fin 50, v8 (ix2 p k) * v9 (ix2 q k) + v11 (ix2 (0 : Fin 1) q) := by
  unfold k0_pay5
  rw [shapeCast_self]
  show matmul (DotDims.transposedRhs 1024 50 1024) none v8 v9 (constant (F := Ideal) ⟨2, ![1024, 1024]⟩ .f32 0x00000000#32) (ix2 p q)
      + broadcastTo S1024x1024 v11 broadcasts_S1x1024_S1024x1024 (ix2 p q) = _
  rw [DotT.matmul_apply, broadcastTo_1b_ab_apply]

/-- One block of rows through both hidden layers (before the second scale). -/
theorem pay6_apply (v16 : Vec Ideal S1024x2048 .f32) (v17 : Vec Ideal S100x2048 .f32) (v19 v24 v28 : Vec Ideal S1x100 .f32)
    (v35 : Vec Ideal S50x100 .f32) (v37 v43 : Vec Ideal S1x50 .f32) (p : Fin 1024) (k : Fin 50) :
    k0_pay6 (F := Ideal) v16 v17 v19 v24 v28 v35 v37 v43 (ix2 p k)
      = max (∑ j : Fin 100,
              ((max (∑ d : Fin 2048, v16 (ix2 p d) * v17 (ix2 j d) + v19 (ix2 (0 : Fin 1) j)) z0 - v24 (ix2 (0 : Fin 1) j))
                * Ideal.rsqrt (v28 (ix2 (0 : Fin 1) j) + eps)) * v35 (ix2 k j)
            + v37 (ix2 (0 : Fin 1) k)) z0 - v43 (ix2 (0 : Fin 1) k) := by
  unfold k0_pay6
  rw [shapeCast_self, shapeCast_self, shapeCast_self, shapeCast_self]
  show max (matmul (F := Ideal) (φ₁ := .f32) (φ₂ := .f32) dot_S1024x100_S50x100_S1024x50_1_1_0_0_n_n none _ v35 (constant (F := Ideal) S1024x50 .f32 0x00000000#32) (ix2 p k)
        + broadcastTo S1024x50 v37 broadcasts_S1x50_S1024x50 (ix2 p k)) z0
      - broadcastTo S1024x50 v43 broadcasts_S1x50_S1024x50 (ix2 p k) = _
  rw [show dot_S1024x100_S50x100_S1024x50_1_1_0_0_n_n = DotDims.transposedRhs 1024 100 50 from rfl,
    DotT.matmul_apply, broadcastTo_1b_ab_apply, broadcastTo_1b_ab_apply]
  refine congrArg (fun s => max (s + v37 (ix2 (0 : Fin 1) k)) z0 - v43 (ix2 (0 : Fin 1) k))
    (Finset.sum_congr rfl fun j _ => congrArg (· * v35 (ix2 k j)) ?_)
  show (max (matmul (F := Ideal) (φ₁ := .f32) (φ₂ := .f32) dot_S1024x2048_S100x2048_S1024x100_1_1_0_0_n_n none v16 v17 (constant (F := Ideal) S1024x100 .f32 0x00000000#32) (ix2 p j)
        + broadcastTo S1024x100 v19 broadcasts_S1x100_S1024x100 (ix2 p j)) z0
      - broadcastTo S1024x100 v24 broadcasts_S1x100_S1024x100 (ix2 p j))
      * broadcastTo S1024x100 (rsqrt (addf v28 (broadcast S1x100 (Scalar.ofBits (F := Ideal) .f32 0x3727C5AC#32)))) broadcasts_S1x100_S1024x100 (ix2 p j) = _
  rw [show dot_S1024x2048_S100x2048_S1024x100_1_1_0_0_n_n = DotDims.transposedRhs 1024 2048 100 from rfl,
    DotT.matmul_apply, broadcastTo_1b_ab_apply, broadcastTo_1b_ab_apply, broadcastTo_1b_ab_apply]
  rfl

end Cert.KernelIdeal.Payloads

end
-- ==== Proof.Pieces.lean ====
import proofs.«130700_g46557445488815_cont_8to1_c_1023_11_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Tactic

/-! What each of the body's three control cases leaves behind, as pure values of what it found: the first grid point
    folds the first normalisation into the first layer, runs a block of rows through the hidden layers and applies the
    output layer; a point that opens a new block of rows reuses the folded weights; a point that stays on its block of
    rows reuses the hidden activations too. Each value is the body's own arithmetic (its pure payloads) applied to
    the blocks the point was given — a load of a buffer the case has just stored reads the stored value. -/

namespace Cert.KernelIdeal.Pieces

open Cert.KernelIdeal Cert.KernelIdeal.Gen

variable {F : FTy → Type} [FloatOps F]
variable (c : Dev nD) (i : grid0.Coords) (arg2 : Memref sig .tc .vmem S1024x2048 .f32) (harg2 : arg2.IsWhole) (arg3 : Memref sig .tc .vmem S100x2048 .f32) (harg3 : arg3.IsWhole) (arg4 : Memref sig .tc .vmem S1x100 .f32) (harg4 : arg4.IsWhole) (arg5 : Memref sig .tc .vmem S50x100 .f32) (harg5 : arg5.IsWhole) (arg6 : Memref sig .tc .vmem S1x50 .f32) (harg6 : arg6.IsWhole) (arg7 : Memref sig .tc .vmem S1024x50 .f32) (harg7 : arg7.IsWhole) (arg8 : Memref sig .tc .vmem S1x1024 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x100 .f32) (harg11 : arg11.IsWhole) (arg12 : Memref sig .tc .vmem S1x100 .f32) (harg12 : arg12.IsWhole) (arg13 : Memref sig .tc .vmem S1x50 .f32) (harg13 : arg13.IsWhole) (arg14 : Memref sig .tc .vmem S1x50 .f32) (harg14 : arg14.IsWhole) (arg15 : Memref sig .tc .vmem S1024x1024 .f32) (harg15 : arg15.IsWhole) (arg16 : Memref sig .tc .vmem S100x2048 .f32) (harg16 : arg16.IsWhole) (arg17 : Memref sig .tc .vmem S1x100 .f32) (harg17 : arg17.IsWhole) (arg18 : Memref sig .tc .vmem S1024x50 .f32) (harg18 : arg18.IsWhole)
variable (x0 : Vec F S1024x2048 .f32) (x1 : Vec F S100x2048 .f32) (x2 : Vec F S1x100 .f32) (x3 : Vec F S50x100 .f32) (x4 : Vec F S1x50 .f32) (x5 : Vec F S1024x50 .f32) (x6 : Vec F S1x1024 .f32) (x7 : Vec F S1x2048 .f32) (x8 : Vec F S1x2048 .f32) (x9 : Vec F S1x100 .f32) (x10 : Vec F S1x100 .f32) (x11 : Vec F S1x50 .f32) (x12 : Vec F S1x50 .f32) (xs0 : Vec F S100x2048 .f32) (xs1 : Vec F S1x100 .f32) (xs2 : Vec F S1024x50 .f32)

theorem hz : (![0, 0] : Fin 2 → Nat) = fun _ => 0 := funext fun a => by fin_cases a <;> rfl

/-- The hidden activations of a block of rows, from the folded weights and bias. -/
abbrev hidden (x0 : Vec F S1024x2048 .f32) (w1s : Vec F S100x2048 .f32) (b1s : Vec F S1x100 .f32) (x9 x10 : Vec F S1x100 .f32)
    (x3 : Vec F S50x100 .f32) (x4 x11 x12 : Vec F S1x50 .f32) : Vec F S1024x50 .f32 :=
  k0_pay4 (k0_pay6 x0 w1s b1s x9 x10 x3 x4 x11) (k0_pay7 x12)

/-- A point that stays on its block of rows: the output layer on the carried activations. -/
theorem outB (hc0 : ¬cond0_0 i) (hc1 : ¬cond0_1 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2 = k0_pay5 xs2 x5 x6 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 xs2)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

/-- A point that opens a block of rows: its activations from the carried folded weights and bias … -/
theorem soutC2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = hidden x0 xs0 xs1 x9 x10 x3 x4 x11 x12 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

/-- … and the output layer on them. -/
theorem outC (hc0 : ¬cond0_0 i) (hc1 : cond0_1 i) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = k0_pay5 (hidden x0 xs0 xs1 x9 x10 x3 x4 x11 x12) x5 x6 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_C
  dsimp only
  sl_unfold_words
  rw [View.canon_unit_zero hz]
  simp only [View.readCov_unit_zero (S := S1024x50) _ hz, View.readCov_unit_zero (S := S100x2048) _ hz, View.readCov_unit_zero (S := S1x100) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

/-- The first point: the folded weights … -/
theorem soutA0 (hc0 : cond0_0 i) (hc1 : cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = k0_pay2 x8 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

/-- … the folded bias … -/
theorem soutA1 (hc0 : cond0_0 i) (hc1 : cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = k0_pay3 x8 x2 x7 x1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

/-- … the first block's activations … -/
theorem soutA2 (hc0 : cond0_0 i) (hc1 : cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = hidden x0 (k0_pay2 x8 x1) (k0_pay3 x8 x2 x7 x1) x9 x10 x3 x4 x11 x12 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  sl_unfold_words
  rw [View.canon_unit_zero hz]
  simp only [View.readCov_unit_zero (S := S1024x50) _ hz, View.readCov_unit_zero (S := S100x2048) _ hz, View.readCov_unit_zero (S := S1x100) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

/-- … and the output layer on them. -/
theorem outA (hc0 : cond0_0 i) (hc1 : cond0_1 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = k0_pay5 (hidden x0 (k0_pay2 x8 x1) (k0_pay3 x8 x2 x7 x1) x9 x10 x3 x4 x11 x12) x5 x6 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  sl_unfold_words
  rw [View.canon_unit_zero hz]
  simp only [View.readCov_unit_zero (S := S1024x50) _ hz, View.readCov_unit_zero (S := S100x2048) _ hz, View.readCov_unit_zero (S := S1x100) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x2048) hz, View.ld_unit_zero (S := S100x2048) hz, View.ld_unit_zero (S := S1x100) hz, View.ld_unit_zero (S := S50x100) hz, View.ld_unit_zero (S := S1x50) hz, View.ld_unit_zero (S := S1024x50) hz, View.ld_unit_zero (S := S1x1024) hz, View.ld_unit_zero (S := S1x2048) hz, View.ld_unit_zero (S := S1024x1024) hz]

end Cert.KernelIdeal.Pieces

end
-- ==== Proof.Values.lean ====
import proofs.«130700_g46557445488815_cont_8to1_c_1023_11_alg».proof.Proof.Payloads
import proofs.«130700_g46557445488815_cont_8to1_c_1023_11_alg».proof.Proof.Pieces

set_option maxRecDepth 16384

noncomputable section

open Idealize.ShloMosaic Idealize.ShloMosaic.TcCoe Idealize.SL.Sem
open Idealize.ShloMosaic.ValueIdx

/-! From the body's pure values to the perceptron's layers: when the vectors a value is applied to hold, entry by entry,
    the corresponding coordinates of the argument arrays (or of an earlier layer), the value holds the layer. -/

namespace Cert.KernelIdeal.Values

open Cert.KernelIdeal Cert.KernelIdeal.Gen Cert.Spec Cert.KernelIdeal.Payloads

variable (X : Fin 8192 → Fin 2048 → EReal) (W1 : Fin 100 → Fin 2048 → EReal) (b1 : Fin 100 → EReal)
  (W2 : Fin 50 → Fin 100 → EReal) (b2 : Fin 50 → EReal) (W3 : Fin 2048 → Fin 50 → EReal) (b3 : Fin 2048 → EReal)
  (m0 v0 : Fin 2048 → EReal) (m1 v1 : Fin 100 → EReal) (m2 v2 : Fin 50 → EReal)

/-- The folded weights. -/
theorem w1s_of (x8 : Vec Ideal S1x2048 .f32) (x1 : Vec Ideal S100x2048 .f32)
    (h8 : ∀ d, x8 (ix2 (0 : Fin 1) d) = v0 d) (h1 : ∀ j d, x1 (ix2 j d) = W1 j d) (j : Fin 100) (d : Fin 2048) :
    k0_pay2 (F := Ideal) x8 x1 (ix2 j d) = w1s W1 v0 j d := by
  rw [pay2_apply, h8, h1]
  rfl

/-- The folded bias. -/
theorem b1s_of (x8 : Vec Ideal S1x2048 .f32) (x2 : Vec Ideal S1x100 .f32) (x7 : Vec Ideal S1x2048 .f32) (x1 : Vec Ideal S100x2048 .f32)
    (h8 : ∀ d, x8 (ix2 (0 : Fin 1) d) = v0 d) (h2 : ∀ j, x2 (ix2 (0 : Fin 1) j) = b1 j) (h7 : ∀ d, x7 (ix2 (0 : Fin 1) d) = m0 d)
    (h1 : ∀ j d, x1 (ix2 j d) = W1 j d) (j : Fin 100) :
    k0_pay3 (F := Ideal) x8 x2 x7 x1 (ix2 (0 : Fin 1) j) = b1s W1 b1 m0 v0 j := by
  rw [pay3_apply, h2]
  simp only [h8, h7, h1]
  rfl

/-- The hidden activations of row r, from a block whose row p is row r. -/
theorem gK_of (x0 : Vec Ideal S1024x2048 .f32) (W : Vec Ideal S100x2048 .f32) (B : Vec Ideal S1x100 .f32) (x9 x10 : Vec Ideal S1x100 .f32)
    (x3 : Vec Ideal S50x100 .f32) (x4 x11 x12 : Vec Ideal S1x50 .f32) (p : Fin 1024) (r : Fin 8192)
    (h0 : ∀ d, x0 (ix2 p d) = X r d) (hW : ∀ j d, W (ix2 j d) = w1s W1 v0 j d) (hB : ∀ j, B (ix2 (0 : Fin 1) j) = b1s W1 b1 m0 v0 j)
    (h9 : ∀ j, x9 (ix2 (0 : Fin 1) j) = m1 j) (h10 : ∀ j, x10 (ix2 (0 : Fin 1) j) = v1 j) (h3 : ∀ k j, x3 (ix2 k j) = W2 k j)
    (h4 : ∀ k, x4 (ix2 (0 : Fin 1) k) = b2 k) (h11 : ∀ k, x11 (ix2 (0 : Fin 1) k) = m2 k) (h12 : ∀ k, x12 (ix2 (0 : Fin 1) k) = v2 k)
    (k : Fin 50) :
    Pieces.hidden (F := Ideal) x0 W B x9 x10 x3 x4 x11 x12 (ix2 p k) = gK X W1 b1 W2 b2 m0 v0 m1 v1 m2 v2 r k := by
  show k0_pay4 (F := Ideal) _ _ (ix2 p k) = _
  rw [pay4_apply, pay6_apply, pay7_apply]
  simp only [h0, hW, hB, h9, h10, h3, h4, h11, h12]
  rfl

/-- The output entry (r, s), from blocks whose row p is row r and whose column q is column s. -/
theorem outK_of (G : Vec Ideal S1024x50 .f32) (x5 : Vec Ideal S1024x50 .f32) (x6 : Vec Ideal S1x1024 .f32) (p q : Fin 1024)
    (r : Fin 8192) (s : Fin 2048) (hG : ∀ k, G (ix2 p k) = gK X W1 b1 W2 b2 m0 v0 m1 v1 m2 v2 r k)
    (h5 : ∀ k, x5 (ix2 q k) = W3 s k) (h6 : x6 (ix2 (0 : Fin 1) q) = b3 s) :
    k0_pay5 (F := Ideal) G x5 x6 (ix2 p q) = outK X W1 b1 W2 b2 W3 b3 m0 v0 m1 v1 m2 v2 r s := by
  rw [pay5_apply]
  simp only [hG, h5, h6]
  rfl

end Cert.KernelIdeal.Values

end
-- ==== Proof.Blocks.lean ====
import proofs.«130700_g46557445488815_cont_8to1_c_1023_11_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx Idealize.ShloMosaic.Tactic

/-! The blocks a grid point is given, read at an entry, as entries of the argument arrays. Point t = 2·i + j works on
    rows 1024·i … 1024·i + 1023 of the input and on columns 1024·j … 1024·j + 1023 of the output: the input window
    moves with i = t / 2, the output layer's weights and bias with j = t % 2, every other window stays put. The vectors
    (biases, means, variances) reach the kernel as one-row matrices: a host reshape [n] → [1, n], read back here. -/

namespace Cert.KernelIdeal.Blocks

open Cert.KernelIdeal Cert.KernelIdeal.Gen

variable {F : FTy → Type} [FloatOps F]
variable (m : (ℓ : Loc nD τ sig) → Buf (Elt F) ℓ)

/-- The input window's block index: (t / 2, 0). -/
theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
/-- The output weights' block index: (t % 2, 0). -/
theorem idx5 : ∀ t : Fin cfg0.N, win0_5.index t 0 = t.val % 2 ∧ win0_5.index t 1 = 0 :=
  (by decide +kernel : ∀ t : Fin grid0.N, win0_5.index t 0 = t.val % 2 ∧ win0_5.index t 1 = 0)
/-- The output bias's block index: (0, t % 2). -/
theorem idx6 : ∀ t : Fin cfg0.N, win0_6.index t 0 = 0 ∧ win0_6.index t 1 = t.val % 2 :=
  (by decide +kernel : ∀ t : Fin grid0.N, win0_6.index t 0 = 0 ∧ win0_6.index t 1 = t.val % 2)
/-- The output window's block index: (t / 2, t % 2). -/
theorem idx13 : ∀ t : Fin cfg0.N, win0_13.index t 0 = t.val / 2 ∧ win0_13.index t 1 = t.val % 2 :=
  (by decide +kernel : ∀ t : Fin grid0.N, win0_13.index t 0 = t.val / 2 ∧ win0_13.index t 1 = t.val % 2)
/-- Window 1 never moves. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Window 2 never moves. -/
theorem idx2 : ∀ t : Fin cfg0.N, win0_2.index t 0 = 0 ∧ win0_2.index t 1 = 0 :=
  (by decide +kernel : ∀ t : Fin grid0.N, win0_2.index t 0 = 0 ∧ win0_2.index t 1 = 0)
/-- Window 3 never moves. -/
theorem idx3 : ∀ t : Fin cfg0.N, win0_3.index t 0 = 0 ∧ win0_3.index t 1 = 0 :=
  (by decide +kernel : ∀ t : Fin grid0.N, win0_3.index t 0 = 0 ∧ win0_3.index t 1 = 0)
/-- Window 4 never moves. -/
theorem idx4 : ∀ t : Fin cfg0.N, win0_4.index t 0 = 0 ∧ win0_4.index t 1 = 0 :=
  (by decide +kernel : ∀ t : Fin grid0.N, win0_4.index t 0 = 0 ∧ win0_4.index t 1 = 0)
/-- Window 7 never moves. -/
theorem idx7 : ∀ t : Fin cfg0.N, win0_7.index t 0 = 0 ∧ win0_7.index t 1 = 0 :=
  (by decide +kernel : ∀ t : Fin grid0.N, win0_7.index t 0 = 0 ∧ win0_7.index t 1 = 0)
/-- Window 8 never moves. -/
theorem idx8 : ∀ t : Fin cfg0.N, win0_8.index t 0 = 0 ∧ win0_8.index t 1 = 0 :=
  (by decide +kernel : ∀ t : Fin grid0.N, win0_8.index t 0 = 0 ∧ win0_8.index t 1 = 0)
/-- Window 9 never moves. -/
theorem idx9 : ∀ t : Fin cfg0.N, win0_9.index t 0 = 0 ∧ win0_9.index t 1 = 0 :=
  (by decide +kernel : ∀ t : Fin grid0.N, win0_9.index t 0 = 0 ∧ win0_9.index t 1 = 0)
/-- Window 10 never moves. -/
theorem idx10 : ∀ t : Fin cfg0.N, win0_10.index t 0 = 0 ∧ win0_10.index t 1 = 0 :=
  (by decide +kernel : ∀ t : Fin grid0.N, win0_10.index t 0 = 0 ∧ win0_10.index t 1 = 0)
/-- Window 11 never moves. -/
theorem idx11 : ∀ t : Fin cfg0.N, win0_11.index t 0 = 0 ∧ win0_11.index t 1 = 0 :=
  (by decide +kernel : ∀ t : Fin grid0.N, win0_11.index t 0 = 0 ∧ win0_11.index t 1 = 0)
/-- Window 12 never moves. -/
theorem idx12 : ∀ t : Fin cfg0.N, win0_12.index t 0 = 0 ∧ win0_12.index t 1 = 0 :=
  (by decide +kernel : ∀ t : Fin grid0.N, win0_12.index t 0 = 0 ∧ win0_12.index t 1 = 0)

/-- The input block of point t: rows 1024·(t / 2) + p of the input. -/
theorem blk0 (c : Dev nD) (t : Fin cfg0.N) (p : Fin 1024) (d : Fin 2048) (r : Fin 8192) (hr : r.val = 1024 * (t.val / 2) + p.val) :
    (iblk m c 0 t : Vec F S1024x2048 .f32) (ix2 p d) = m ((c : Thread nD τ).loc main_arg0) (ix2 r d) := by
  unfold iblk
  rw [View.read_apply]
  show V m c main_arg0 _ = _
  rw [V_main_arg0]
  refine congrArg _ (funext fun a => Fin.ext ?_)
  match a with
  | ⟨0, _⟩ => show win0_0.index t 0 * 1024 + 1 * p.val = r.val; rw [(idx0 t).1, hr]; omega
  | ⟨1, _⟩ => show win0_0.index t 1 * 2048 + 1 * d.val = d.val; rw [(idx0 t).2]; omega

/-- The first layer's weights, whole. -/
theorem blk1 (c : Dev nD) (t : Fin cfg0.N) (j : Fin 100) (d : Fin 2048) :
    (iblk m c 1 t : Vec F S100x2048 .f32) (ix2 j d) = m ((c : Thread nD τ).loc main_arg1) (ix2 j d) := by
  unfold iblk
  rw [View.read_apply]
  show V m c main_arg1 _ = _
  rw [V_main_arg1]
  refine congrArg _ (funext fun a => Fin.ext ?_)
  match a with
  | ⟨0, _⟩ => show win0_1.index t 0 * 100 + 1 * j.val = j.val; rw [(idx1 t).1]; omega
  | ⟨1, _⟩ => show win0_1.index t 1 * 2048 + 1 * d.val = d.val; rw [(idx1 t).2]; omega

/-- The second layer's weights, whole. -/
theorem blk3 (c : Dev nD) (t : Fin cfg0.N) (k : Fin 50) (j : Fin 100) :
    (iblk m c 3 t : Vec F S50x100 .f32) (ix2 k j) = m ((c : Thread nD τ).loc main_arg3) (ix2 k j) := by
  unfold iblk
  rw [View.read_apply]
  show V m c main_arg3 _ = _
  rw [V_main_arg3]
  refine congrArg _ (funext fun a => Fin.ext ?_)
  match a with
  | ⟨0, _⟩ => show win0_3.index t 0 * 50 + 1 * k.val = k.val; rw [(idx3 t).1]; omega
  | ⟨1, _⟩ => show win0_3.index t 1 * 100 + 1 * j.val = j.val; rw [(idx3 t).2]; omega

/-- The output layer's weights for point t's block of output columns: rows 1024·(t % 2) + q of the weight matrix. -/
theorem blk5 (c : Dev nD) (t : Fin cfg0.N) (q : Fin 1024) (k : Fin 50) (r : Fin 2048) (hr : r.val = 1024 * (t.val % 2) + q.val) :
    (iblk m c 5 t : Vec F S1024x50 .f32) (ix2 q k) = m ((c : Thread nD τ).loc main_arg5) (ix2 r k) := by
  unfold iblk
  rw [View.read_apply]
  show V m c main_arg5 _ = _
  rw [V_main_arg5]
  refine congrArg _ (funext fun a => Fin.ext ?_)
  match a with
  | ⟨0, _⟩ => show win0_5.index t 0 * 1024 + 1 * q.val = r.val; rw [(idx5 t).1, hr]; omega
  | ⟨1, _⟩ => show win0_5.index t 1 * 50 + 1 * k.val = k.val; rw [(idx5 t).2]; omega

/-- The output bias as the region finds it: the host's one-row view of the vector. -/
theorem V6 (c : Dev nD) : (V m c main_call0_v2 : S1x2048.Idx → Elt F .f32) = shapeCast S1x2048 (m ((c : Thread nD τ).loc main_arg6)) shapeCasts_S2048_S1x2048 := by
  dsimp only [Gen.V, Gen.hostOps0]
  after_results
  rfl

/-- The output bias for point t's block of output columns. -/
theorem blk6 (c : Dev nD) (t : Fin cfg0.N) (q : Fin 1024) (r : Fin 2048) (hr : r.val = 1024 * (t.val % 2) + q.val) :
    (iblk m c 6 t : Vec F S1x1024 .f32) (ix2 (0 : Fin 1) q) = m ((c : Thread nD τ).loc main_arg6) (ix1 r) := by
  unfold iblk
  rw [View.read_apply]
  show V m c main_call0_v2 _ = _
  rw [V6]
  refine Eq.trans (congrArg _ (funext fun a => Fin.ext ?_)) (shapeCast_a_1a_apply _ shapeCasts_S2048_S1x2048 (0 : Fin 1) r)
  match a with
  | ⟨0, _⟩ => show win0_6.index t 0 * 1 + 1 * 0 = 0; rw [(idx6 t).1]
  | ⟨1, _⟩ => show win0_6.index t 1 * 1024 + 1 * q.val = r.val; rw [(idx6 t).2, hr]; omega

/-- Window 2's array as the region finds it: the host's one-row view of the vector. -/
theorem V2 (c : Dev nD) : (V m c main_call0_v0 : S1x100.Idx → Elt F .f32) = shapeCast S1x100 (m ((c : Thread nD τ).loc main_arg2)) shapeCasts_S100_S1x100 := by
  dsimp only [Gen.V, Gen.hostOps0]
  after_results
  rfl

/-- … so its block, at every point, is the vector. -/
theorem blk2 (c : Dev nD) (t : Fin cfg0.N) (j : Fin 100) :
    (iblk m c 2 t : Vec F S1x100 .f32) (ix2 (0 : Fin 1) j) = m ((c : Thread nD τ).loc main_arg2) (ix1 j) := by
  unfold iblk
  rw [View.read_apply]
  show V m c main_call0_v0 _ = _
  rw [V2]
  refine Eq.trans (congrArg _ (funext fun a => Fin.ext ?_)) (shapeCast_a_1a_apply _ shapeCasts_S100_S1x100 (0 : Fin 1) j)
  match a with
  | ⟨0, _⟩ => show win0_2.index t 0 * 1 + 1 * 0 = 0; rw [(idx2 t).1]
  | ⟨1, _⟩ => show win0_2.index t 1 * 100 + 1 * j.val = j.val; rw [(idx2 t).2]; omega

/-- Window 4's array as the region finds it: the host's one-row view of the vector. -/
theorem V4 (c : Dev nD) : (V m c main_call0_v1 : S1x50.Idx → Elt F .f32) = shapeCast S1x50 (m ((c : Thread nD τ).loc main_arg4)) shapeCasts_S50_S1x50 := by
  dsimp only [Gen.V, Gen.hostOps0]
  after_results
  rfl

/-- … so its block, at every point, is the vector. -/
theorem blk4 (c : Dev nD) (t : Fin cfg0.N) (j : Fin 50) :
    (iblk m c 4 t : Vec F S1x50 .f32) (ix2 (0 : Fin 1) j) = m ((c : Thread nD τ).loc main_arg4) (ix1 j) := by
  unfold iblk
  rw [View.read_apply]
  show V m c main_call0_v1 _ = _
  rw [V4]
  refine Eq.trans (congrArg _ (funext fun a => Fin.ext ?_)) (shapeCast_a_1a_apply _ shapeCasts_S50_S1x50 (0 : Fin 1) j)
  match a with
  | ⟨0, _⟩ => show win0_4.index t 0 * 1 + 1 * 0 = 0; rw [(idx4 t).1]
  | ⟨1, _⟩ => show win0_4.index t 1 * 50 + 1 * j.val = j.val; rw [(idx4 t).2]; omega

/-- Window 7's array as the region finds it: the host's one-row view of the vector. -/
theorem V7 (c : Dev nD) : (V m c main_call0_v3 : S1x2048.Idx → Elt F .f32) = shapeCast S1x2048 (m ((c : Thread nD τ).loc main_arg7)) shapeCasts_S2048_S1x2048 := by
  dsimp only [Gen.V, Gen.hostOps0]
  after_results
  rfl

/-- … so its block, at every point, is the vector. -/
theorem blk7 (c : Dev nD) (t : Fin cfg0.N) (j : Fin 2048) :
    (iblk m c 7 t : Vec F S1x2048 .f32) (ix2 (0 : Fin 1) j) = m ((c : Thread nD τ).loc main_arg7) (ix1 j) := by
  unfold iblk
  rw [View.read_apply]
  show V m c main_call0_v3 _ = _
  rw [V7]
  refine Eq.trans (congrArg _ (funext fun a => Fin.ext ?_)) (shapeCast_a_1a_apply _ shapeCasts_S2048_S1x2048 (0 : Fin 1) j)
  match a with
  | ⟨0, _⟩ => show win0_7.index t 0 * 1 + 1 * 0 = 0; rw [(idx7 t).1]
  | ⟨1, _⟩ => show win0_7.index t 1 * 2048 + 1 * j.val = j.val; rw [(idx7 t).2]; omega

/-- Window 8's array as the region finds it: the host's one-row view of the vector. -/
theorem V8 (c : Dev nD) : (V m c main_call0_v4 : S1x2048.Idx → Elt F .f32) = shapeCast S1x2048 (m ((c : Thread nD τ).loc main_arg8)) shapeCasts_S2048_S1x2048 := by
  dsimp only [Gen.V, Gen.hostOps0]
  after_results
  rfl

/-- … so its block, at every point, is the vector. -/
theorem blk8 (c : Dev nD) (t : Fin cfg0.N) (j : Fin 2048) :
    (iblk m c 8 t : Vec F S1x2048 .f32) (ix2 (0 : Fin 1) j) = m ((c : Thread nD τ).loc main_arg8) (ix1 j) := by
  unfold iblk
  rw [View.read_apply]
  show V m c main_call0_v4 _ = _
  rw [V8]
  refine Eq.trans (congrArg _ (funext fun a => Fin.ext ?_)) (shapeCast_a_1a_apply _ shapeCasts_S2048_S1x2048 (0 : Fin 1) j)
  match a with
  | ⟨0, _⟩ => show win0_8.index t 0 * 1 + 1 * 0 = 0; rw [(idx8 t).1]
  | ⟨1, _⟩ => show win0_8.index t 1 * 2048 + 1 * j.val = j.val; rw [(idx8 t).2]; omega

/-- Window 9's array as the region finds it: the host's one-row view of the vector. -/
theorem V9 (c : Dev nD) : (V m c main_call0_v5 : S1x100.Idx → Elt F .f32) = shapeCast S1x100 (m ((c : Thread nD τ).loc main_arg9)) shapeCasts_S100_S1x100 := by
  dsimp only [Gen.V, Gen.hostOps0]
  after_results
  rfl

/-- … so its block, at every point, is the vector. -/
theorem blk9 (c : Dev nD) (t : Fin cfg0.N) (j : Fin 100) :
    (iblk m c 9 t : Vec F S1x100 .f32) (ix2 (0 : Fin 1) j) = m ((c : Thread nD τ).loc main_arg9) (ix1 j) := by
  unfold iblk
  rw [View.read_apply]
  show V m c main_call0_v5 _ = _
  rw [V9]
  refine Eq.trans (congrArg _ (funext fun a => Fin.ext ?_)) (shapeCast_a_1a_apply _ shapeCasts_S100_S1x100 (0 : Fin 1) j)
  match a with
  | ⟨0, _⟩ => show win0_9.index t 0 * 1 + 1 * 0 = 0; rw [(idx9 t).1]
  | ⟨1, _⟩ => show win0_9.index t 1 * 100 + 1 * j.val = j.val; rw [(idx9 t).2]; omega

/-- Window 10's array as the region finds it: the host's one-row view of the vector. -/
theorem V10 (c : Dev nD) : (V m c main_call0_v6 : S1x100.Idx → Elt F .f32) = shapeCast S1x100 (m ((c : Thread nD τ).loc main_arg10)) shapeCasts_S100_S1x100 := by
  dsimp only [Gen.V, Gen.hostOps0]
  after_results
  rfl

/-- … so its block, at every point, is the vector. -/
theorem blk10 (c : Dev nD) (t : Fin cfg0.N) (j : Fin 100) :
    (iblk m c 10 t : Vec F S1x100 .f32) (ix2 (0 : Fin 1) j) = m ((c : Thread nD τ).loc main_arg10) (ix1 j) := by
  unfold iblk
  rw [View.read_apply]
  show V m c main_call0_v6 _ = _
  rw [V10]
  refine Eq.trans (congrArg _ (funext fun a => Fin.ext ?_)) (shapeCast_a_1a_apply _ shapeCasts_S100_S1x100 (0 : Fin 1) j)
  match a with
  | ⟨0, _⟩ => show win0_10.index t 0 * 1 + 1 * 0 = 0; rw [(idx10 t).1]
  | ⟨1, _⟩ => show win0_10.index t 1 * 100 + 1 * j.val = j.val; rw [(idx10 t).2]; omega

/-- Window 11's array as the region finds it: the host's one-row view of the vector. -/
theorem V11 (c : Dev nD) : (V m c main_call0_v7 : S1x50.Idx → Elt F .f32) = shapeCast S1x50 (m ((c : Thread nD τ).loc main_arg11)) shapeCasts_S50_S1x50 := by
  dsimp only [Gen.V, Gen.hostOps0]
  after_results
  rfl

/-- … so its block, at every point, is the vector. -/
theorem blk11 (c : Dev nD) (t : Fin cfg0.N) (j : Fin 50) :
    (iblk m c 11 t : Vec F S1x50 .f32) (ix2 (0 : Fin 1) j) = m ((c : Thread nD τ).loc main_arg11) (ix1 j) := by
  unfold iblk
  rw [View.read_apply]
  show V m c main_call0_v7 _ = _
  rw [V11]
  refine Eq.trans (congrArg _ (funext fun a => Fin.ext ?_)) (shapeCast_a_1a_apply _ shapeCasts_S50_S1x50 (0 : Fin 1) j)
  match a with
  | ⟨0, _⟩ => show win0_11.index t 0 * 1 + 1 * 0 = 0; rw [(idx11 t).1]
  | ⟨1, _⟩ => show win0_11.index t 1 * 50 + 1 * j.val = j.val; rw [(idx11 t).2]; omega

/-- Window 12's array as the region finds it: the host's one-row view of the vector. -/
theorem V12 (c : Dev nD) : (V m c main_call0_v8 : S1x50.Idx → Elt F .f32) = shapeCast S1x50 (m ((c : Thread nD τ).loc main_arg12)) shapeCasts_S50_S1x50 := by
  dsimp only [Gen.V, Gen.hostOps0]
  after_results
  rfl

/-- … so its block, at every point, is the vector. -/
theorem blk12 (c : Dev nD) (t : Fin cfg0.N) (j : Fin 50) :
    (iblk m c 12 t : Vec F S1x50 .f32) (ix2 (0 : Fin 1) j) = m ((c : Thread nD τ).loc main_arg12) (ix1 j) := by
  unfold iblk
  rw [View.read_apply]
  show V m c main_call0_v8 _ = _
  rw [V12]
  refine Eq.trans (congrArg _ (funext fun a => Fin.ext ?_)) (shapeCast_a_1a_apply _ shapeCasts_S50_S1x50 (0 : Fin 1) j)
  match a with
  | ⟨0, _⟩ => show win0_12.index t 0 * 1 + 1 * 0 = 0; rw [(idx12 t).1]
  | ⟨1, _⟩ => show win0_12.index t 1 * 50 + 1 * j.val = j.val; rw [(idx12 t).2]; omega

end Cert.KernelIdeal.Blocks

end
-- ==== Proof.Invariant.lean ====
import proofs.«130700_g46557445488815_cont_8to1_c_1023_11_alg».proof.Proof.Values
import proofs.«130700_g46557445488815_cont_8to1_c_1023_11_alg».proof.Proof.Blocks

set_option maxRecDepth 16384

noncomputable section

open Idealize.ShloMosaic Idealize.ShloMosaic.TcCoe Idealize.SL.Sem
open Idealize.ShloMosaic.ValueIdx

/-! What the kernel's buffers hold after each grid point, by induction along the grid (point t = 2·i + j):
    the folded weights and bias, computed at the first point, are carried unchanged; the hidden activations are those of
    the block of rows i = t / 2 (computed when j = 0, carried when j = 1); the output block holds the output layer at
    rows 1024·i … and columns 1024·j … . -/

namespace Cert.KernelIdeal.Inv

open Cert.KernelIdeal Cert.KernelIdeal.Gen Cert.Spec

variable (m : (ℓ : Loc nD τ sig) → Buf (Elt Ideal) ℓ) (c : Dev nD)

/-! ### The argument arrays by coordinates -/
abbrev aX (r : Fin 8192) (d : Fin 2048) : EReal := m ((c : Thread nD τ).loc main_arg0) (ix2 r d)
abbrev aW1 (j : Fin 100) (d : Fin 2048) : EReal := m ((c : Thread nD τ).loc main_arg1) (ix2 j d)
abbrev ab1 (j : Fin 100) : EReal := m ((c : Thread nD τ).loc main_arg2) (ix1 j)
abbrev aW2 (k : Fin 50) (j : Fin 100) : EReal := m ((c : Thread nD τ).loc main_arg3) (ix2 k j)
abbrev ab2 (k : Fin 50) : EReal := m ((c : Thread nD τ).loc main_arg4) (ix1 k)
abbrev aW3 (q : Fin 2048) (k : Fin 50) : EReal := m ((c : Thread nD τ).loc main_arg5) (ix2 q k)
abbrev ab3 (q : Fin 2048) : EReal := m ((c : Thread nD τ).loc main_arg6) (ix1 q)
abbrev am0 (d : Fin 2048) : EReal := m ((c : Thread nD τ).loc main_arg7) (ix1 d)
abbrev av0 (d : Fin 2048) : EReal := m ((c : Thread nD τ).loc main_arg8) (ix1 d)
abbrev am1 (j : Fin 100) : EReal := m ((c : Thread nD τ).loc main_arg9) (ix1 j)
abbrev av1 (j : Fin 100) : EReal := m ((c : Thread nD τ).loc main_arg10) (ix1 j)
abbrev am2 (k : Fin 50) : EReal := m ((c : Thread nD τ).loc main_arg11) (ix1 k)
abbrev av2 (k : Fin 50) : EReal := m ((c : Thread nD τ).loc main_arg12) (ix1 k)

/-- What holds after point n. -/
structure Holds (n : ℕ) (hn : n < cfg0.N) : Prop where
  w : ∀ j d, (outsAt0 m c n hn).2.1 (ix2 j d) = w1s (aW1 m c) (av0 m c) j d
  b : ∀ j, (outsAt0 m c n hn).2.2.1 (ix2 (0 : Fin 1) j) = b1s (aW1 m c) (ab1 m c) (am0 m c) (av0 m c) j
  g : ∀ (p : Fin 1024) (r : Fin 8192), r.val = 1024 * (n / 2) + p.val →
        ∀ k, (outsAt0 m c n hn).2.2.2 (ix2 p k) = gK (aX m c) (aW1 m c) (ab1 m c) (aW2 m c) (ab2 m c) (am0 m c) (av0 m c) (am1 m c) (av1 m c) (am2 m c) (av2 m c) r k
  o : ∀ (p q : Fin 1024) (r : Fin 8192) (s : Fin 2048), r.val = 1024 * (n / 2) + p.val → s.val = 1024 * (n % 2) + q.val →
        (outsAt0 m c n hn).1 (ix2 p q) = outK (aX m c) (aW1 m c) (ab1 m c) (aW2 m c) (ab2 m c) (aW3 m c) (ab3 m c) (am0 m c) (av0 m c) (am1 m c) (av1 m c) (am2 m c) (av2 m c) r s

theorem holds : ∀ (n : ℕ) (hn : n < cfg0.N), Holds m c n hn
  | 0, hn => by
    have e : outsAt0 m c 0 hn = _ := outsAt0_A m c ⟨0, hn⟩ rfl rfl
    have hw : ∀ j d, k0_pay2 (F := Ideal) (iblk m c 8 ⟨0, hn⟩) (iblk m c 1 ⟨0, hn⟩) (ix2 j d) = w1s (aW1 m c) (av0 m c) j d :=
      Values.w1s_of (aW1 m c) (av0 m c) _ _ (fun d => Blocks.blk8 m c ⟨0, hn⟩ d) (fun j d => Blocks.blk1 m c ⟨0, hn⟩ j d)
    have hb : ∀ j, k0_pay3 (F := Ideal) (iblk m c 8 ⟨0, hn⟩) (iblk m c 2 ⟨0, hn⟩) (iblk m c 7 ⟨0, hn⟩) (iblk m c 1 ⟨0, hn⟩) (ix2 (0 : Fin 1) j)
        = b1s (aW1 m c) (ab1 m c) (am0 m c) (av0 m c) j :=
      Values.b1s_of (aW1 m c) (ab1 m c) (am0 m c) (av0 m c) _ _ _ _ (fun d => Blocks.blk8 m c ⟨0, hn⟩ d) (fun j => Blocks.blk2 m c ⟨0, hn⟩ j)
        (fun d => Blocks.blk7 m c ⟨0, hn⟩ d) (fun j d => Blocks.blk1 m c ⟨0, hn⟩ j d)
    have hg : ∀ (p : Fin 1024) (r : Fin 8192), r.val = 1024 * (0 / 2) + p.val → ∀ k,
        Pieces.hidden (F := Ideal) (iblk m c 0 ⟨0, hn⟩) (k0_pay2 (iblk m c 8 ⟨0, hn⟩) (iblk m c 1 ⟨0, hn⟩))
          (k0_pay3 (iblk m c 8 ⟨0, hn⟩) (iblk m c 2 ⟨0, hn⟩) (iblk m c 7 ⟨0, hn⟩) (iblk m c 1 ⟨0, hn⟩))
          (iblk m c 9 ⟨0, hn⟩) (iblk m c 10 ⟨0, hn⟩) (iblk m c 3 ⟨0, hn⟩) (iblk m c 4 ⟨0, hn⟩) (iblk m c 11 ⟨0, hn⟩) (iblk m c 12 ⟨0, hn⟩) (ix2 p k)
          = gK (aX m c) (aW1 m c) (ab1 m c) (aW2 m c) (ab2 m c) (am0 m c) (av0 m c) (am1 m c) (av1 m c) (am2 m c) (av2 m c) r k :=
      fun p r hr => Values.gK_of (aX m c) (aW1 m c) (ab1 m c) (aW2 m c) (ab2 m c) (am0 m c) (av0 m c) (am1 m c) (av1 m c) (am2 m c) (av2 m c) _ _ _ _ _ _ _ _ _ p r
        (fun d => Blocks.blk0 m c ⟨0, hn⟩ p d r hr) hw hb (fun j => Blocks.blk9 m c ⟨0, hn⟩ j) (fun j => Blocks.blk10 m c ⟨0, hn⟩ j) (fun k j => Blocks.blk3 m c ⟨0, hn⟩ k j) (fun k => Blocks.blk4 m c ⟨0, hn⟩ k) (fun k => Blocks.blk11 m c ⟨0, hn⟩ k) (fun k => Blocks.blk12 m c ⟨0, hn⟩ k)
    refine ⟨fun j d => ?_, fun j => ?_, fun p r hr k => ?_, fun p q r s hr hs => ?_⟩
    · rw [e]; dsimp only; rw [Pieces.soutA0]; exact hw j d
    · rw [e]; dsimp only; rw [Pieces.soutA1]; exact hb j
    · rw [e]; dsimp only; rw [Pieces.soutA2]; exact hg p r hr k
    · rw [e]; dsimp only; rw [Pieces.outA]
      exact Values.outK_of (aX m c) (aW1 m c) (ab1 m c) (aW2 m c) (ab2 m c) (aW3 m c) (ab3 m c) (am0 m c) (av0 m c) (am1 m c) (av1 m c) (am2 m c) (av2 m c) _ _ _ p q r s (hg p r hr)
        (fun k => Blocks.blk5 m c ⟨0, hn⟩ q k s hs) (Blocks.blk6 m c ⟨0, hn⟩ q s hs)
  | n + 1, hn => by
    have ih := holds n (Nat.lt_of_succ_lt hn)
    have hN : cfg0.N = 16 := N_0
    have h16 : ¬(n + 1) % 16 = 0 := by omega
    by_cases h2 : (n + 1) % 2 = 0
    · -- a new block of rows: the folded weights and bias are carried, the activations recomputed
      have e : outsAt0 m c (n + 1) hn = _ := outsAt0_C m c ⟨n + 1, hn⟩ h16 h2
      have hg : ∀ (p : Fin 1024) (r : Fin 8192), r.val = 1024 * ((n + 1) / 2) + p.val → ∀ k,
          Pieces.hidden (F := Ideal) (iblk m c 0 ⟨n + 1, hn⟩) (outsAt0 m c n (Nat.lt_of_succ_lt hn)).2.1 (outsAt0 m c n (Nat.lt_of_succ_lt hn)).2.2.1
            (iblk m c 9 ⟨n + 1, hn⟩) (iblk m c 10 ⟨n + 1, hn⟩) (iblk m c 3 ⟨n + 1, hn⟩) (iblk m c 4 ⟨n + 1, hn⟩) (iblk m c 11 ⟨n + 1, hn⟩) (iblk m c 12 ⟨n + 1, hn⟩) (ix2 p k)
            = gK (aX m c) (aW1 m c) (ab1 m c) (aW2 m c) (ab2 m c) (am0 m c) (av0 m c) (am1 m c) (av1 m c) (am2 m c) (av2 m c) r k :=
        fun p r hr => Values.gK_of (aX m c) (aW1 m c) (ab1 m c) (aW2 m c) (ab2 m c) (am0 m c) (av0 m c) (am1 m c) (av1 m c) (am2 m c) (av2 m c) _ _ _ _ _ _ _ _ _ p r
          (fun d => Blocks.blk0 m c ⟨n + 1, hn⟩ p d r hr) ih.w ih.b (fun j => Blocks.blk9 m c ⟨n + 1, hn⟩ j) (fun j => Blocks.blk10 m c ⟨n + 1, hn⟩ j) (fun k j => Blocks.blk3 m c ⟨n + 1, hn⟩ k j) (fun k => Blocks.blk4 m c ⟨n + 1, hn⟩ k) (fun k => Blocks.blk11 m c ⟨n + 1, hn⟩ k) (fun k => Blocks.blk12 m c ⟨n + 1, hn⟩ k)
      refine ⟨fun j d => ?_, fun j => ?_, fun p r hr k => ?_, fun p q r s hr hs => ?_⟩
      · rw [e]; dsimp only; unfold sout0_C_0; exact ih.w j d
      · rw [e]; dsimp only; unfold sout0_C_1; exact ih.b j
      · rw [e]; dsimp only; rw [Pieces.soutC2]; exact hg p r hr k
      · rw [e]; dsimp only; rw [Pieces.outC]
        exact Values.outK_of (aX m c) (aW1 m c) (ab1 m c) (aW2 m c) (ab2 m c) (aW3 m c) (ab3 m c) (am0 m c) (av0 m c) (am1 m c) (av1 m c) (am2 m c) (av2 m c) _ _ _ p q r s (hg p r hr)
          (fun k => Blocks.blk5 m c ⟨n + 1, hn⟩ q k s hs) (Blocks.blk6 m c ⟨n + 1, hn⟩ q s hs)
    · -- the same block of rows, the next block of output columns: everything is carried
      have e : outsAt0 m c (n + 1) hn = _ := outsAt0_B m c ⟨n + 1, hn⟩ h16 h2
      have hd : (n + 1) / 2 = n / 2 := by omega
      refine ⟨fun j d => ?_, fun j => ?_, fun p r hr k => ?_, fun p q r s hr hs => ?_⟩
      · rw [e]; dsimp only; unfold sout0_B_0; exact ih.w j d
      · rw [e]; dsimp only; unfold sout0_B_1; exact ih.b j
      · rw [e]; dsimp only; unfold sout0_B_2; exact ih.g p r (by rw [hr, hd]) k
      · rw [e]; dsimp only; rw [Pieces.outB]
        exact Values.outK_of (aX m c) (aW1 m c) (ab1 m c) (aW2 m c) (ab2 m c) (aW3 m c) (ab3 m c) (am0 m c) (av0 m c) (am1 m c) (av1 m c) (am2 m c) (av2 m c) _ _ _ p q r s (fun k => ih.g p r (by rw [hr, hd]) k)
          (fun k => Blocks.blk5 m c ⟨n + 1, hn⟩ q k s hs) (Blocks.blk6 m c ⟨n + 1, hn⟩ q s hs)

end Cert.KernelIdeal.Inv

end
-- ==== Proof.KernelValue.lean ====
import proofs.«130700_g46557445488815_cont_8to1_c_1023_11_alg».proof.Proof.Invariant
import proofs.«130700_g46557445488815_cont_8to1_c_1023_11_alg».proof.Proof.Gen.KernelIdeal.Value

set_option maxRecDepth 16384

noncomputable section

open Idealize.ShloMosaic Idealize.ShloMosaic.TcCoe Idealize.SL.Sem
open Idealize.ShloMosaic.ValueIdx
open Idealize.ShloMosaic.Pipeline (Dat)

/-! From blocks to the array: what point t writes back is block t of ONE function of the argument arrays (the
    perceptron's output, by the invariant along the grid), and the sixteen blocks (8 blocks of rows by 2 of columns) tile
    the result array — the point that covers entry (r, s) is 2·(r / 1024) + s / 1024. -/

namespace Cert.KernelIdeal.KValue

open Cert.KernelIdeal Cert.KernelIdeal.Gen Cert.Spec Cert.KernelIdeal.Inv

variable (m : (ℓ : Loc nD τ sig) → Buf (Elt Ideal) ℓ) (ρ : Dev nD → PrngReg)

/-- The result array as one function of the argument arrays: the output layer, entry by entry. -/
def G (c : Dev nD) : Buf (Elt Ideal) ((c : Thread nD τ).loc main_v0) :=
  fun i => outK (aX m c) (aW1 m c) (ab1 m c) (aW2 m c) (ab2 m c) (aW3 m c) (ab3 m c) (am0 m c) (av0 m c) (am1 m c) (av1 m c) (am2 m c) (av2 m c) (i 0) (i 1)

/-- What point t writes back is block t of it. -/
theorem flushed_eq (c : Dev nD) (t : Fin cfg0.N) :
    (dats m 0 c).flushed 13 t = ((cfg0.win 13).blk t).view.read (Elt Ideal) (G m c) := by
  rw [Value.flushed13]
  funext y
  obtain ⟨p, q, rfl⟩ : ∃ (p q : Fin 1024), y = ix2 p q := ⟨y 0, y 1, eq_ix2 y⟩
  have ht : t.val < 16 := lt_of_lt_of_eq t.isLt N_0
  have e : ((cfg0.win 13).blk t).view.emb (ix2 p q)
      = ix2 (⟨1024 * (t.val / 2) + p.val, by omega⟩ : Fin 8192) (⟨1024 * (t.val % 2) + q.val, by omega⟩ : Fin 2048) :=
    funext fun a => Fin.ext (by
      match a with
      | ⟨0, _⟩ => show win0_13.index t 0 * 1024 + 1 * p.val = 1024 * (t.val / 2) + p.val; rw [(Blocks.idx13 t).1]; omega
      | ⟨1, _⟩ => show win0_13.index t 1 * 1024 + 1 * q.val = 1024 * (t.val % 2) + q.val; rw [(Blocks.idx13 t).2]; omega)
  show (outsAt0 m c t.val t.isLt).1 (ix2 p q) = G m c (((cfg0.win 13).blk t).view.emb (ix2 p q))
  rw [e]
  exact (holds m c t.val t.isLt).o p q _ _ rfl rfl

/-- An entry is in point t's block iff each coordinate is in the block's range on its axis. -/
theorem mem_blk (t : Fin cfg0.N) (i : S8192x2048.Idx) :
    i ∈ ((cfg0.win 13).blk t).view.set ↔ ∀ a : Fin 2, win0_13.index t a * S1024x1024.size a ≤ (i a).val ∧ (i a).val < win0_13.index t a * S1024x1024.size a + S1024x1024.size a := by
  show i ∈ ((View.whole main_v0).slice (win0_13.rect t)).set ↔ _
  rw [View.set_slice_whole, Rect.mem_set_unit]
  exact Iff.rfl

/-- Every entry of the result is in some point's block. -/
theorem cover (i : S8192x2048.Idx) : ∃ t : Fin cfg0.N, (cfg0.win 13).flush t = true ∧ i ∈ ((cfg0.win 13).blk t).view.set := by
  have h0 : (i 0).val < 8192 := (i 0).isLt
  have h1 : (i 1).val < 2048 := (i 1).isLt
  have hN : cfg0.N = 16 := N_0
  refine ⟨⟨2 * ((i 0).val / 1024) + (i 1).val / 1024, by omega⟩, flush0_13 _, ?_⟩
  rw [mem_blk]
  intro a
  match a with
  | ⟨0, _⟩ =>
    show win0_13.index _ 0 * 1024 ≤ (i 0).val ∧ (i 0).val < win0_13.index _ 0 * 1024 + 1024
    rw [(Blocks.idx13 _).1]
    show (2 * ((i 0).val / 1024) + (i 1).val / 1024) / 2 * 1024 ≤ (i 0).val ∧ (i 0).val < (2 * ((i 0).val / 1024) + (i 1).val / 1024) / 2 * 1024 + 1024
    omega
  | ⟨1, _⟩ =>
    show win0_13.index _ 1 * 1024 ≤ (i 1).val ∧ (i 1).val < win0_13.index _ 1 * 1024 + 1024
    rw [(Blocks.idx13 _).2]
    show (2 * ((i 0).val / 1024) + (i 1).val / 1024) % 2 * 1024 ≤ (i 1).val ∧ (i 1).val < (2 * ((i 0).val / 1024) + (i 1).val / 1024) % 2 * 1024 + 1024
    omega

/-- So the result array ends holding the output layer. -/
theorem final (c : Dev nD) : (dats m 0 c).arrAt 13 cfg0.N = G m c :=
  (dats m 0 c).arrAt_eq_of_cover 13 (G m c) (fun t _ => flushed_eq m c t) cover

end Cert.KernelIdeal.KValue

end
-- ==== Proof.RefValue.lean ====
import proofs.«130700_g46557445488815_cont_8to1_c_1023_11_alg».proof.Proof.Gen.ReferenceIdeal.Read
import proofs.«130700_g46557445488815_cont_8to1_c_1023_11_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx

/-! The reference, read entry by entry: each of its stages at a row and a column is the corresponding layer of the
    perceptron written with quotients — a normalisation is a difference divided by the square root of variance plus ε,
    a layer a sum over the contracted axis plus the bias spread over the rows, and the final selection keeps every row
    (its mask compares zero with zero). -/

namespace Cert.ReferenceIdeal.RefValue

open Cert.ReferenceIdeal Cert.ReferenceIdeal.Gen Cert.ReferenceIdeal.Read Cert.Spec

/-- A vector by its coordinate. -/
abbrev c1 {n : Nat} (x : (⟨1, ![n]⟩ : Shape).Idx → EReal) (j : Fin n) : EReal := x (ix1 j)
/-- A matrix by its coordinates. -/
abbrev c2 {a b : Nat} (x : (⟨2, ![a, b]⟩ : Shape).Idx → EReal) (r : Fin a) (d : Fin b) : EReal := x (ix2 r d)

variable (x0 : (⟨S8192x2048, .f32⟩ : BufTy).Contents (Elt Ideal)) (x1 : (⟨S100x2048, .f32⟩ : BufTy).Contents (Elt Ideal)) (x2 : (⟨S100, .f32⟩ : BufTy).Contents (Elt Ideal)) (x3 : (⟨S50x100, .f32⟩ : BufTy).Contents (Elt Ideal)) (x4 : (⟨S50, .f32⟩ : BufTy).Contents (Elt Ideal)) (x5 : (⟨S2048x50, .f32⟩ : BufTy).Contents (Elt Ideal)) (x6 x7 x8 : (⟨S2048, .f32⟩ : BufTy).Contents (Elt Ideal)) (x9 x10 : (⟨S100, .f32⟩ : BufTy).Contents (Elt Ideal)) (x11 x12 : (⟨S50, .f32⟩ : BufTy).Contents (Elt Ideal))

/-- The normalised input. -/
theorem xn_apply (r : Fin 8192) (d : Fin 2048) :
    val_main_v9 (F := Ideal) x0 x7 x8 (ix2 r d) = Ideal.div (x0 (ix2 r d) - x7 (ix1 d)) (Ideal.sqrt (x8 (ix1 d) + eps)) := by
  rw [val_main_v9_apply, val_main_v3_apply, val_main_v2_apply, val_main_v1_apply, val_main_v8_apply, val_main_v7_apply,
    val_main_v6_apply, val_main_v5_apply, val_main_v4_apply, val_main_cst_apply]
  have e1 : idx_main_v1 (idx_main_v2 (ix2 r d)) = ix1 d := funext fun a => Fin.ext (by match a with | ⟨0, _⟩ => rfl)
  have e2 : idx_main_v7 (idx_main_v8 (ix2 r d)) = ix1 d := funext fun a => Fin.ext (by match a with | ⟨0, _⟩ => rfl)
  rw [e1, e2]
  rfl

/-- The first layer before the rectifier. -/
theorem layer1_apply (r : Fin 8192) (j : Fin 100) :
    val_main_v14 (F := Ideal) x0 x1 x2 x7 x8 (ix2 r j)
      = ∑ d : Fin 2048, Ideal.div (x0 (ix2 r d) - x7 (ix1 d)) (Ideal.sqrt (x8 (ix1 d) + eps)) * x1 (ix2 j d) + x2 (ix1 j) := by
  rw [val_main_v14_apply, val_main_v11_apply, val_main_v13_apply, val_main_v12_apply]
  have e1 : idx_main_v12 (idx_main_v13 (ix2 r j)) = ix1 j := funext fun a => Fin.ext (by match a with | ⟨0, _⟩ => rfl)
  rw [e1]
  refine congrArg (· + x2 (ix1 j)) (Finset.sum_congr rfl fun d _ => ?_)
  have e2 : lidx_main_v11 (ix2 r j) d = ix2 r d := funext fun a => Fin.ext (by match a with | ⟨0, _⟩ => rfl | ⟨1, _⟩ => rfl)
  have e3 : idx_main_v10 (ridx_main_v11 (ix2 r j) d) = ix2 j d := funext fun a => Fin.ext (by match a with | ⟨0, _⟩ => rfl | ⟨1, _⟩ => rfl)
  rw [e2, val_main_v10_apply, e3, xn_apply]

/-- The first hidden layer: rectified, shifted, divided. -/
theorem hidden1_apply (r : Fin 8192) (j : Fin 100) :
    val_main_v24 (F := Ideal) x0 x1 x2 x7 x8 x9 x10 (ix2 r j) = hR (c2 x0) (c2 x1) (c1 x2) (c1 x7) (c1 x8) (c1 x9) (c1 x10) r j := by
  rw [val_main_v24_apply, val_main_v18_apply, val_main_v15_apply, val_main_call0_v0_apply, val_main_call0_cst_apply,
    val_main_v17_apply, val_main_v16_apply, val_main_v23_apply, val_main_v22_apply, val_main_v21_apply, val_main_v20_apply,
    val_main_v19_apply, val_main_cst_0_apply, layer1_apply]
  have e1 : idx_main_v16 (idx_main_v17 (ix2 r j)) = ix1 j := funext fun a => Fin.ext (by match a with | ⟨0, _⟩ => rfl)
  have e2 : idx_main_v22 (idx_main_v23 (ix2 r j)) = ix1 j := funext fun a => Fin.ext (by match a with | ⟨0, _⟩ => rfl)
  rw [e1, e2]
  rfl

/-- The second layer before the rectifier. -/
theorem layer2_apply (r : Fin 8192) (k : Fin 50) :
    val_main_v29 (F := Ideal) x0 x1 x2 x3 x4 x7 x8 x9 x10 (ix2 r k)
      = ∑ j : Fin 100, hR (c2 x0) (c2 x1) (c1 x2) (c1 x7) (c1 x8) (c1 x9) (c1 x10) r j * x3 (ix2 k j) + x4 (ix1 k) := by
  rw [val_main_v29_apply, val_main_v26_apply, val_main_v28_apply, val_main_v27_apply]
  have e1 : idx_main_v27 (idx_main_v28 (ix2 r k)) = ix1 k := funext fun a => Fin.ext (by match a with | ⟨0, _⟩ => rfl)
  rw [e1]
  refine congrArg (· + x4 (ix1 k)) (Finset.sum_congr rfl fun j _ => ?_)
  have e2 : lidx_main_v26 (ix2 r k) j = ix2 r j := funext fun a => Fin.ext (by match a with | ⟨0, _⟩ => rfl | ⟨1, _⟩ => rfl)
  have e3 : idx_main_v25 (ridx_main_v26 (ix2 r k) j) = ix2 k j := funext fun a => Fin.ext (by match a with | ⟨0, _⟩ => rfl | ⟨1, _⟩ => rfl)
  rw [e2, val_main_v25_apply, e3, hidden1_apply]

/-- The second hidden layer: rectified, shifted, divided. -/
theorem hidden2_apply (r : Fin 8192) (k : Fin 50) :
    val_main_v39 (F := Ideal) x0 x1 x2 x3 x4 x7 x8 x9 x10 x11 x12 (ix2 r k)
      = gR (c2 x0) (c2 x1) (c1 x2) (c2 x3) (c1 x4) (c1 x7) (c1 x8) (c1 x9) (c1 x10) (c1 x11) (c1 x12) r k := by
  rw [val_main_v39_apply, val_main_v33_apply, val_main_v30_apply, val_main_call1_v0_apply, val_main_call1_cst_apply,
    val_main_v32_apply, val_main_v31_apply, val_main_v38_apply, val_main_v37_apply, val_main_v36_apply, val_main_v35_apply,
    val_main_v34_apply, val_main_cst_1_apply, layer2_apply]
  have e1 : idx_main_v31 (idx_main_v32 (ix2 r k)) = ix1 k := funext fun a => Fin.ext (by match a with | ⟨0, _⟩ => rfl)
  have e2 : idx_main_v37 (idx_main_v38 (ix2 r k)) = ix1 k := funext fun a => Fin.ext (by match a with | ⟨0, _⟩ => rfl)
  rw [e1, e2]
  rfl

/-- The output layer. -/
theorem layer3_apply (r : Fin 8192) (q : Fin 2048) :
    val_main_v44 (F := Ideal) x0 x1 x2 x3 x4 x5 x6 x7 x8 x9 x10 x11 x12 (ix2 r q)
      = outR (c2 x0) (c2 x1) (c1 x2) (c2 x3) (c1 x4) (c2 x5) (c1 x6) (c1 x7) (c1 x8) (c1 x9) (c1 x10) (c1 x11) (c1 x12) r q := by
  rw [val_main_v44_apply, val_main_v41_apply, val_main_v43_apply, val_main_v42_apply]
  have e1 : idx_main_v42 (idx_main_v43 (ix2 r q)) = ix1 q := funext fun a => Fin.ext (by match a with | ⟨0, _⟩ => rfl)
  rw [e1]
  refine congrArg (· + x6 (ix1 q)) (Finset.sum_congr rfl fun k _ => ?_)
  have e2 : lidx_main_v41 (ix2 r q) k = ix2 r k := funext fun a => Fin.ext (by match a with | ⟨0, _⟩ => rfl | ⟨1, _⟩ => rfl)
  have e3 : idx_main_v40 (ridx_main_v41 (ix2 r q) k) = ix2 q k := funext fun a => Fin.ext (by match a with | ⟨0, _⟩ => rfl | ⟨1, _⟩ => rfl)
  rw [e2, val_main_v40_apply, e3, hidden2_apply]

/-- The selection keeps every entry: its mask compares a zero with a zero. -/
theorem result_apply (r : Fin 8192) (q : Fin 2048) :
    val_main_v49 (F := Ideal) x0 x1 x2 x3 x4 x5 x6 x7 x8 x9 x10 x11 x12 (ix2 r q)
      = outR (c2 x0) (c2 x1) (c1 x2) (c2 x3) (c1 x4) (c2 x5) (c1 x6) (c1 x7) (c1 x8) (c1 x9) (c1 x10) (c1 x11) (c1 x12) r q := by
  rw [val_main_v49_apply, val_main_call2_v0_apply, val_main_v47_apply, val_main_v46_apply, val_main_v0_apply, val_main_v45_apply,
    val_main_c_apply, val_main_c_2_apply, layer3_apply]
  exact select_one _ _

/-- The reference's result array, whole. -/
theorem result_eq :
    val_main_v49 (F := Ideal) x0 x1 x2 x3 x4 x5 x6 x7 x8 x9 x10 x11 x12
      = fun i => outR (c2 x0) (c2 x1) (c1 x2) (c2 x3) (c1 x4) (c2 x5) (c1 x6) (c1 x7) (c1 x8) (c1 x9) (c1 x10) (c1 x11) (c1 x12) (i 0) (i 1) := by
  funext i
  obtain ⟨r, q, rfl⟩ : ∃ (r : Fin 8192) (q : Fin 2048), i = ix2 r q := ⟨i 0, i 1, eq_ix2 i⟩
  exact result_apply x0 x1 x2 x3 x4 x5 x6 x7 x8 x9 x10 x11 x12 r q

end Cert.ReferenceIdeal.RefValue

end
-- ==== Proof.PreDecode.lean ====
import proofs.«130700_g46557445488815_cont_8to1_c_1023_11_alg».proof.Pre_finite_inputs
import proofs.«130700_g46557445488815_cont_8to1_c_1023_11_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

set_option maxRecDepth 16384

noncomputable section

open Idealize.ShloMosaic Idealize.ShloMosaic.TcCoe Idealize.SL.Sem
open Idealize.ShloMosaic.ValueIdx

/-! The precondition, read back: it is a conjunction of sixteen "for all entries" tests — thirteen say that every entry of
    an argument array has absolute value below +∞, three that every entry of a variance is at least zero. At the ideal
    values an extended real whose absolute value is below +∞ is a real number. -/

namespace Cert.PreDecode

open Cert.Pre_finite_inputs

instance : Subsingleton (⟨0, ![]⟩ : Shape).Idx := ⟨fun a b => funext fun d => d.elim0⟩

/-- The word 0x7F800000 is +∞. -/
theorem inf_word : Ideal.ofBits .f32 0x7F800000#32 = ⊤ := by simp [Ideal.ofBits, Ideal.ieee]

/-- An extended real whose absolute value is below +∞ is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [inf_word] at h
  induction x using EReal.rec with
  | bot => exact absurd h (by decide)
  | coe r => exact ⟨r, rfl⟩
  | top => exact absurd h (by decide)

/-- An extended real that tests "at least the zero word" is non-negative. -/
theorem nonneg_of_oge (x : EReal)
    (h : FloatOps.cmpf (F := Ideal) (φ := .f32) .oge x (Ideal.ofBits .f32 0x00000000#32) = 1#1) : 0 ≤ x := by
  rw [Ideal.ofBits_zero_f32] at h
  by_contra hx
  have : FloatOps.cmpf (F := Ideal) (φ := .f32) .oge x 0 = 0#1 := by
    show BitVec.ofBool (decide ((0 : EReal) ≤ x)) = 0#1
    rw [decide_eq_false hx]; rfl
  rw [this] at h
  exact absurd h (by decide)

/-- A "for all entries, absolute value below +∞" test that came out true makes every entry a real. -/
theorem all_real {s : Shape} {axes : List (Fin s.rank)} (a : FVec Ideal s .f32) (init : IVec ⟨0, ![]⟩ 1)
    (bc : (⟨0, ![]⟩ : Shape).BroadcastsInDim s ![]) (h : s.ReducesTo axes ⟨0, ![]⟩) (hu : 0 < (⟨0, ![]⟩ : Shape).numel)
    (e : Host.reduce IntOp.andi (cmpf .olt (Host.absf a) (broadcastInDim s ![] bc (constant (F := Ideal) ⟨0, ![]⟩ .f32 0x7F800000#32))) init h hu ix0 = 1#1)
    (i : s.Idx) : ∃ r : ℝ, a i = r :=
  real_of_abs_lt_inf (a i) (Host.reduce_andi_all _ init h hu ix0 e i)

/-- A "for all entries, at least zero" test that came out true makes every entry non-negative. -/
theorem all_nonneg {s : Shape} {axes : List (Fin s.rank)} (a : FVec Ideal s .f32) (init : IVec ⟨0, ![]⟩ 1)
    (bc : (⟨0, ![]⟩ : Shape).BroadcastsInDim s ![]) (h : s.ReducesTo axes ⟨0, ![]⟩) (hu : 0 < (⟨0, ![]⟩ : Shape).numel)
    (e : Host.reduce IntOp.andi (cmpf .oge a (broadcastInDim s ![] bc (constant (F := Ideal) ⟨0, ![]⟩ .f32 0x00000000#32))) init h hu ix0 = 1#1)
    (i : s.Idx) : 0 ≤ a i :=
  nonneg_of_oge (a i) (Host.reduce_andi_all _ init h hu ix0 e i)

/-- What the precondition says of the thirteen argument arrays. -/
structure Good (a0 : FVec Ideal S8192x2048 .f32) (a1 : FVec Ideal S100x2048 .f32) (a2 : FVec Ideal S100 .f32) (a3 : FVec Ideal S50x100 .f32) (a4 : FVec Ideal S50 .f32) (a5 : FVec Ideal S2048x50 .f32) (a6 a7 a8 : FVec Ideal S2048 .f32) (a9 a10 : FVec Ideal S100 .f32) (a11 a12 : FVec Ideal S50 .f32) : Prop where
  r0 : ∀ i, ∃ r : ℝ, a0 i = r
  r1 : ∀ i, ∃ r : ℝ, a1 i = r
  r2 : ∀ i, ∃ r : ℝ, a2 i = r
  r3 : ∀ i, ∃ r : ℝ, a3 i = r
  r4 : ∀ i, ∃ r : ℝ, a4 i = r
  r5 : ∀ i, ∃ r : ℝ, a5 i = r
  r6 : ∀ i, ∃ r : ℝ, a6 i = r
  r7 : ∀ i, ∃ r : ℝ, a7 i = r
  r8 : ∀ i, ∃ r : ℝ, a8 i = r
  r9 : ∀ i, ∃ r : ℝ, a9 i = r
  r10 : ∀ i, ∃ r : ℝ, a10 i = r
  r11 : ∀ i, ∃ r : ℝ, a11 i = r
  r12 : ∀ i, ∃ r : ℝ, a12 i = r
  n8 : ∀ i, 0 ≤ a8 i
  n10 : ∀ i, 0 ≤ a10 i
  n12 : ∀ i, 0 ≤ a12 i

theorem good_of_pre (a0 : FVec Ideal S8192x2048 .f32) (a1 : FVec Ideal S100x2048 .f32) (a2 : FVec Ideal S100 .f32) (a3 : FVec Ideal S50x100 .f32) (a4 : FVec Ideal S50 .f32) (a5 : FVec Ideal S2048x50 .f32) (a6 a7 a8 : FVec Ideal S2048 .f32) (a9 a10 : FVec Ideal S100 .f32) (a11 a12 : FVec Ideal S50 .f32)
    (h : fn (F := Ideal) a0 a1 a2 a3 a4 a5 a6 a7 a8 a9 a10 a11 a12 = fun _ => 1#1) : Good a0 a1 a2 a3 a4 a5 a6 a7 a8 a9 a10 a11 a12 := by
  have e := congrFun h ix0
  dsimp only [fn, fn_part1, fn_part2, fn_part3, fn_part4] at e
  obtain ⟨e, h74⟩ := IntOp.andi_eq_one.1 e
  obtain ⟨e, h70⟩ := IntOp.andi_eq_one.1 e
  obtain ⟨e, h66⟩ := IntOp.andi_eq_one.1 e
  obtain ⟨e, h62⟩ := IntOp.andi_eq_one.1 e
  obtain ⟨e, h57⟩ := IntOp.andi_eq_one.1 e
  obtain ⟨e, h52⟩ := IntOp.andi_eq_one.1 e
  obtain ⟨e, h47⟩ := IntOp.andi_eq_one.1 e
  obtain ⟨e, h42⟩ := IntOp.andi_eq_one.1 e
  obtain ⟨e, h37⟩ := IntOp.andi_eq_one.1 e
  obtain ⟨e, h32⟩ := IntOp.andi_eq_one.1 e
  obtain ⟨e, h27⟩ := IntOp.andi_eq_one.1 e
  obtain ⟨e, h22⟩ := IntOp.andi_eq_one.1 e
  obtain ⟨e, h17⟩ := IntOp.andi_eq_one.1 e
  obtain ⟨e, h12⟩ := IntOp.andi_eq_one.1 e
  obtain ⟨h3, h7⟩ := IntOp.andi_eq_one.1 e
  exact ⟨all_real a0 _ _ _ _ h3, all_real a1 _ _ _ _ h7, all_real a2 _ _ _ _ h12, all_real a3 _ _ _ _ h17, all_real a4 _ _ _ _ h22,
    all_real a5 _ _ _ _ h27, all_real a6 _ _ _ _ h32, all_real a7 _ _ _ _ h37, all_real a8 _ _ _ _ h42, all_real a9 _ _ _ _ h47,
    all_real a10 _ _ _ _ h52, all_real a11 _ _ _ _ h57, all_real a12 _ _ _ _ h62,
    all_nonneg a8 _ _ _ _ h66, all_nonneg a10 _ _ _ _ h70, all_nonneg a12 _ _ _ _ h74⟩

end Cert.PreDecode

end
-- ==== Proof.lean ====
/-
  A three-layer perceptron with three input normalisations (running statistics, no affine part), fused in one kernel
  tiled over 8 blocks of 1024 rows and 2 blocks of 1024 output columns, against the plain layer-by-layer reference.

  The kernel folds the first normalisation into the first layer at its first grid point (scaled weights and a shifted
  bias, kept in scratch for the whole run), computes the hidden activations of a block of rows when it first meets the
  block (kept in scratch while the output columns advance), and applies the output layer at every point; each
  normalisation multiplies by the reciprocal square root of variance plus ε. The reference normalises in place and
  divides by the square root. The reference's final selection keeps every row.

  Over the extended reals the two agree where every input is a real number and the three variances are non-negative:
  then variance plus ε is a positive real, a quotient by its square root is the product with its reciprocal square
  root, and the folding is distributivity over a finite sum of reals (Proof/Spec.lean). Outside that domain the
  reference itself divides by zero or takes the square root of a negative number.

  The modules: Spec (the mathematics), LibDotT (a product against a right factor contracted on its last axis, at an
  entry), Payloads (the body's pure values at an entry), Pieces (what each control case leaves, as values), Blocks (the
  blocks a point is given, as entries of the arguments), Values and Invariant (the buffers after each point, by
  induction along the grid), KernelValue (blocks to the array), RefValue (the reference entry by entry), PreDecode
  (the precondition read back).
-/
import proofs.«130700_g46557445488815_cont_8to1_c_1023_11_alg».proof.Defs
import proofs.«130700_g46557445488815_cont_8to1_c_1023_11_alg».proof.Proof.Gen.Kernel
import proofs.«130700_g46557445488815_cont_8to1_c_1023_11_alg».proof.Proof.Gen.Kernel.Frame
import proofs.«130700_g46557445488815_cont_8to1_c_1023_11_alg».proof.Proof.Gen.KernelIdeal
import proofs.«130700_g46557445488815_cont_8to1_c_1023_11_alg».proof.Proof.Gen.KernelIdeal.Frame
import proofs.«130700_g46557445488815_cont_8to1_c_1023_11_alg».proof.Proof.Gen.KernelIdeal.Value
import proofs.«130700_g46557445488815_cont_8to1_c_1023_11_alg».proof.Proof.Gen.ReferenceIdeal
import proofs.«130700_g46557445488815_cont_8to1_c_1023_11_alg».proof.Proof.Gen.ReferenceIdeal.Run
import proofs.«130700_g46557445488815_cont_8to1_c_1023_11_alg».proof.Proof.Gen.ReferenceIdeal.Read
import proofs.«130700_g46557445488815_cont_8to1_c_1023_11_alg».proof.Proof.Gen.Pre_finite_inputs
import proofs.«130700_g46557445488815_cont_8to1_c_1023_11_alg».proof.Proof.KernelValue
import proofs.«130700_g46557445488815_cont_8to1_c_1023_11_alg».proof.Proof.RefValue
import proofs.«130700_g46557445488815_cont_8to1_c_1023_11_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the perceptron's output: the kernel with the folded, product-normalised writing (the
    invariant along the grid, then the blocks tile the array), the reference with the in-place, quotient-normalised
    one (stage by stage); the precondition makes the two writings equal. -/
theorem algebraic : Cert.algebraic_KernelIdeal_ReferenceIdeal := by
  intro m ρ m' ρ' hpre hagree
  refine ⟨fun c => Cert.KernelIdeal.KValue.G m c, ?_, ?_⟩
  · exact (θ_run Cert.KernelIdeal.defs _ _).mono
      (fun r h c => ⟨(h c).1.trans (Cert.KernelIdeal.KValue.final m c), (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.ReferenceIdeal.RefValue.result_eq]
    obtain ⟨e0, e1, e2, e3, e4, e5, e6, e7, e8, e9, e10, e11, e12⟩ := hagree c
    rw [e0, e1, e2, e3, e4, e5, e6, e7, e8, e9, e10, e11, e12]
    have good := Cert.PreDecode.good_of_pre _ _ _ _ _ _ _ _ _ _ _ _ _ (hpre c)
    funext i
    exact (Cert.Spec.outK_eq_outR _ _ _ _ _ _ _ _ _ _ _ _ _
      (fun r d => good.r0 (ix2 r d)) (fun j d => good.r1 (ix2 j d)) (fun j => good.r2 (ix1 j))
      (fun d => good.r7 (ix1 d)) (fun d => good.r8 (ix1 d)) (fun j => good.r10 (ix1 j)) (fun k => good.r12 (ix1 k))
      (fun d => good.n8 (ix1 d)) (fun j => good.n10 (ix1 j)) (fun k => good.n12 (ix1 k)) (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
